-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 141
  | .vmem => 56
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x1, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x1, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S100000x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x128, .f32⟩
  | 4 => ⟨S1700000x1, .f32⟩
  | 5 => ⟨S1700000x128, .f32⟩
  | 6 => ⟨S1700000x128, .f32⟩
  | 7 => ⟨S_, .f32⟩
  | 8 => ⟨S100000x128, .f32⟩
  | 9 => ⟨S1700000x1, .i32⟩
  | 10 => ⟨S100000x128, .f32⟩
  | 11 => ⟨S1x128, .f32⟩
  | 12 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_14 : Ref sig .tc := ⟨.hbm, 104, rfl⟩
abbrev main_v78 : Ref sig .tc := ⟨.hbm, 105, rfl⟩
abbrev main_v79 : Ref sig .tc := ⟨.hbm, 106, rfl⟩
abbrev main_c_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v60) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg8) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v93) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v106) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v107) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v108) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x128, .f32⟩
  | 79 => ⟨S1700000x1, .f32⟩
  | 80 => ⟨S1700000x128, .f32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S100000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S100000x128, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x128, .f32⟩
  | 23 => ⟨S1700000x1, .f32⟩
  | 24 => ⟨S1700000x128, .f32⟩
  | 25 => ⟨S1700000x128, .f32⟩
  | 26 => ⟨S_, .f32⟩
  | 27 => ⟨S100000x128, .f32⟩
  | 28 => ⟨S1700000x1, .i32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call2_cst : Ref sig .tc := ⟨.hbm, 113, rfl⟩
abbrev main_call2_v0 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_14 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_call3_cst : Ref sig .tc := ⟨.hbm, 137, rfl⟩
abbrev main_call3_v0 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_17 : Ref sig .tc := ⟨.hbm, 142, rfl⟩
abbrev main_v105 : Ref sig .tc := ⟨.hbm, 143, rfl⟩
abbrev main_v106 : Ref sig .tc := ⟨.hbm, 144, rfl⟩
abbrev main_c_18 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_19 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_call4_cst : Ref sig .tc := ⟨.hbm, 161, rfl⟩
abbrev main_call4_v0 : Ref sig .tc := ⟨.hbm, 162, rfl⟩
abbrev main_v121 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.GcnSpec.lean ====
/-
  A four-weight residual graph-convolution network, as one function of its inputs.

  The graph has 100000 nodes and 1600000 directed edges given as two rows of endpoints; every node gets a self loop, so
  the edge list read by the layers has 1700000 entries: the given ones followed by (n, n) for each node n. A node's degree
  counts the edges that end at it; an edge (s, d) weighs rsqrt(max(deg s, 1)) * rsqrt(max(deg d, 1)).
  One convolution of features H with weights W and bias b is

      relu( A (H W) + b ),      (A T)(n, f) = sum over the edges (s, d) with d = n of  T(s, f) * weight(s, d),

  and the network chains five of them:  x1 = conv(x; W1, b1),  x2 = conv(x1; W2, b2),  x3 = conv(x2 + x1; W3, b3),
  x4 = conv(x2 + x3; W4, b4),  out = conv(x4 + x3; W4, b4).
  Each piece is written with the host operations the plain-jnp program spells it with, so that program's result is this
  function of its arguments by unfolding.
-/
import proofs.«128388_j11321533792498_1_alg».proof.ReferenceIdeal
import proofs.«128388_j11321533792498_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

variable (F) in
/-- An array of the given shape and element type, floats read in `F` (integers stay words). -/
abbrev Ct (S : Shape) (e : EltTy) : Type := (⟨S, e⟩ : BufTy).Contents (Elt F)

/-- The edges' first endpoints, then every node once (the self loops). -/
def srcOf (ei : Ct F S2x1600000 .i32) : Ct F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' second endpoints, then every node once. -/
def dstOf (ei : Ct F S2x1600000 .i32) : Ct F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A list of node numbers as an index column for a gather: a negative number counts from the end. -/
def wrap (v : Ct F S1700000 .i32) : Ct F S1700000x1 .i32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- rsqrt(max(deg, 1)) per node, the degree counting the edges that end at the node. -/
def invSqrtDeg (d : Ct F S1700000 .i32) : Ct F S100000 .f32 :=
  Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))) (broadcastInDim S100000 ![] bcast_S_S100000 (constant S_ .f32 0x3F800000#32)))

/-- The weight of each edge: the product of its two endpoints' factors. -/
def edgeWeight (s d : Ct F S1700000 .i32) : Ct F S1700000 .f32 :=
  mulf (Host.gather gather_S100000_S1700000x1_S1700000_n_0_n_n_0_1_1 (invSqrtDeg d) (wrap s)) (Host.gather gather_S100000_S1700000x1_S1700000_n_0_n_n_0_1_1 (invSqrtDeg d) (wrap d))

/-- The weighted sum over incoming edges: row n of the result adds T's row s times the edge's weight over the edges
    (s, n). -/
def aggregate (s d : Ct F S1700000 .i32) (nw : Ct F S1700000 .f32) (T : Ct F S100000x128 .f32) : Ct F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 T (wrap s)) (broadcastInDim S1700000x128 ![0, 1] bcast_S1700000x1_S1700000x128_0_1 (broadcastInDim S1700000x1 ![0] bcast_S1700000_S1700000x1_0 nw)))

/-- The dense transform H W. -/
def dense (H : Ct F S100000x128 .f32) (W : Ct F S128x128 .f32) : Ct F S100000x128 .f32 :=
  Host.dotGeneral dot_S100000x128_S128x128_S100000x128_1_0_0_1_n_n none H W

/-- relu(A + b), the bias added to every row. -/
def biasRelu (A : Ct F S100000x128 .f32) (b : Ct F S128 .f32) : Ct F S100000x128 .f32 :=
  maximumf (addf A (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- One convolution. -/
def conv (s d : Ct F S1700000 .i32) (nw : Ct F S1700000 .f32) (H : Ct F S100000x128 .f32) (W : Ct F S128x128 .f32) (b : Ct F S128 .f32) :
    Ct F S100000x128 .f32 :=
  biasRelu (aggregate s d nw (dense H W)) b

/-- The network's five layers, the later ones fed the sum of two earlier outputs. -/
def x1 (x : Ct F S100000x128 .f32) (ei : Ct F S2x1600000 .i32) (W1 : Ct F S128x128 .f32) (b1 : Ct F S128 .f32) : Ct F S100000x128 .f32 :=
  conv (srcOf ei) (dstOf ei) (edgeWeight (srcOf ei) (dstOf ei)) x W1 b1
def x2 (x : Ct F S100000x128 .f32) (ei : Ct F S2x1600000 .i32) (W1 : Ct F S128x128 .f32) (b1 : Ct F S128 .f32) (W2 : Ct F S128x128 .f32) (b2 : Ct F S128 .f32) :
    Ct F S100000x128 .f32 :=
  conv (srcOf ei) (dstOf ei) (edgeWeight (srcOf ei) (dstOf ei)) (x1 x ei W1 b1) W2 b2
def x3 (x : Ct F S100000x128 .f32) (ei : Ct F S2x1600000 .i32) (W1 : Ct F S128x128 .f32) (b1 : Ct F S128 .f32) (W2 : Ct F S128x128 .f32) (b2 : Ct F S128 .f32)
    (W3 : Ct F S128x128 .f32) (b3 : Ct F S128 .f32) : Ct F S100000x128 .f32 :=
  conv (srcOf ei) (dstOf ei) (edgeWeight (srcOf ei) (dstOf ei)) ((addf : Ct F S100000x128 .f32 → Ct F S100000x128 .f32 → Ct F S100000x128 .f32) (x2 x ei W1 b1 W2 b2) (x1 x ei W1 b1)) W3 b3
def x4 (x : Ct F S100000x128 .f32) (ei : Ct F S2x1600000 .i32) (W1 : Ct F S128x128 .f32) (b1 : Ct F S128 .f32) (W2 : Ct F S128x128 .f32) (b2 : Ct F S128 .f32)
    (W3 : Ct F S128x128 .f32) (b3 : Ct F S128 .f32) (W4 : Ct F S128x128 .f32) (b4 : Ct F S128 .f32) : Ct F S100000x128 .f32 :=
  conv (srcOf ei) (dstOf ei) (edgeWeight (srcOf ei) (dstOf ei)) ((addf : Ct F S100000x128 .f32 → Ct F S100000x128 .f32 → Ct F S100000x128 .f32) (x2 x ei W1 b1 W2 b2) (x3 x ei W1 b1 W2 b2 W3 b3)) W4 b4
def net (x : Ct F S100000x128 .f32) (ei : Ct F S2x1600000 .i32) (W1 : Ct F S128x128 .f32) (b1 : Ct F S128 .f32) (W2 : Ct F S128x128 .f32) (b2 : Ct F S128 .f32)
    (W3 : Ct F S128x128 .f32) (b3 : Ct F S128 .f32) (W4 : Ct F S128x128 .f32) (b4 : Ct F S128 .f32) : Ct F S100000x128 .f32 :=
  conv (srcOf ei) (dstOf ei) (edgeWeight (srcOf ei) (dstOf ei)) ((addf : Ct F S100000x128 .f32 → Ct F S100000x128 .f32 → Ct F S100000x128 .f32) (x4 x ei W1 b1 W2 b2 W3 b3 W4 b4) (x3 x ei W1 b1 W2 b2 W3 b3)) W4 b4

end Cert.Gcn

end
-- ==== Proof.KernelRun.lean ====
/-
  The idealized kernel's run, with its result array named.

  @main is sixteen segments: six stretches of host operations and ten pallas_calls. The buffers' contents at each
  boundary are a fold from the launch memory — a stretch applies its operations, a pallas_call leaves each of its
  arrays at what its write-backs leave and every other buffer as it was. Every weakly fair execution terminates with
  every unscoped buffer at the last boundary's contents; read at the result buffer and at the ten arguments, that is the
  statement below: the result is the fold's value at the result buffer, the arguments are as launched.
-/
import proofs.«128388_j11321533792498_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v108) = W16 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v108 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Run

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.BodyValue.lean ====
/-
  What the three kernel bodies compute on one block of 5000 rows, against the whole-array dense transform and bias-relu.

  Every kernel here walks the 100000 rows in 20 blocks of 5000. A body sees rows 5000 t … 5000 t + 4999 of its row operands
  (`rowsBlk X t`) and the whole of the small ones (the 128 × 128 weights, the bias as a 1 × 128 row). Over the extended
  reals a change of float format is the identity and a product accumulated into zeros is the plain sum over the shared
  axis, so:
    the matmul body of rows t of X and W is rows t of X W;
    the residual matmul body of rows t of X and of R is rows t of (X + R) W;
    the bias-relu body of rows t of A and the bias row is rows t of relu(A + b).
-/
import proofs.«128388_j11321533792498_1_alg».proof.Proof.Gen.KernelIdeal.Skeleton
import proofs.«128388_j11321533792498_1_alg».proof.Proof.Gen.ReferenceIdeal.Read
import proofs.«128388_j11321533792498_1_alg».proof.Proof.GcnSpec
import proofs.«128388_j11321533792498_1_alg».proof.Proof.LibPlainMatmul
import Idealize.ShloMosaic.Lib.ValueIdx
import Idealize.ShloMosaic.Lib.Pipeline.Value

noncomputable section

namespace Cert.Gcn

open Idealize.ShloMosaic Idealize.ShloMosaic.ValueIdx
open scoped BigOperators

/-- Rows 5000 t … 5000 t + 4999 of an array of 100000 rows. -/
def rowsBlk {α : Type} (X : (⟨2, ![100000, 128]⟩ : Shape).Idx → α) (t : Fin 20) : (⟨2, ![5000, 128]⟩ : Shape).Idx → α :=
  fun j => X (ix2 (⟨5000 * t.val + (j 0).val, by have h0 := idx2_lt0 j; have ht := t.isLt; omega⟩ : Fin 100000)
    (⟨(j 1).val, idx2_lt1 j⟩ : Fin 128))

/-- A vector of 128 entries as a matrix of one row. -/
def asRow {α : Type} (b : (⟨1, ![128]⟩ : Shape).Idx → α) : (⟨2, ![1, 128]⟩ : Shape).Idx → α :=
  fun y => b (ix1 (⟨(y 1).val, idx2_lt1 y⟩ : Fin 128))

/-- The dense transform at an entry: the sum over the shared axis. -/
theorem dense_apply (X : Ct Ideal Cert.ReferenceIdeal.S100000x128 .f32) (W : Ct Ideal Cert.ReferenceIdeal.S128x128 .f32)
    (r : Fin 100000) (q : Fin 128) :
    dense X W (ix2 r q) = ∑ k : Fin 128, X (ix2 r k) * W (ix2 k q) := by
  show Cert.ReferenceIdeal.Read.val_main_v29 (F := Ideal) X W (ix2 r q) = _
  rw [Cert.ReferenceIdeal.Read.val_main_v29_apply]
  refine Finset.sum_congr rfl fun k _ => ?_
  have e1 : Cert.ReferenceIdeal.Read.lidx_main_v29 (ix2 r q) k = ix2 r k :=
    funext fun a => Fin.ext (by match a with | ⟨0, _⟩ => rfl | ⟨1, _⟩ => rfl)
  have e2 : Cert.ReferenceIdeal.Read.ridx_main_v29 (ix2 r q) k = ix2 k q :=
    funext fun a => Fin.ext (by match a with | ⟨0, _⟩ => rfl | ⟨1, _⟩ => rfl)
  rw [e1, e2]

/-- Bias-relu at an entry: the larger of the entry plus its column's bias and zero. -/
theorem biasRelu_apply (A : Ct Ideal Cert.ReferenceIdeal.S100000x128 .f32) (b : Ct Ideal Cert.ReferenceIdeal.S128 .f32)
    (r : Fin 100000) (q : Fin 128) :
    biasRelu A b (ix2 r q) = max (A (ix2 r q) + b (ix1 q)) (FloatOps.ofBits (F := Ideal) .f32 0x00000000#32) := by
  show max (A (ix2 r q) + Cert.ReferenceIdeal.Read.val_main_v44 (F := Ideal) b (ix2 r q))
      (Cert.ReferenceIdeal.Read.val_main_call0_v0 (F := Ideal) (ix2 r q)) = _
  rw [Cert.ReferenceIdeal.Read.val_main_v44_apply, Cert.ReferenceIdeal.Read.val_main_v43_apply,
    Cert.ReferenceIdeal.Read.val_main_call0_v0_apply, Cert.ReferenceIdeal.Read.val_main_call0_cst_apply]
  have e : Cert.ReferenceIdeal.Read.idx_main_v43 (Cert.ReferenceIdeal.Read.idx_main_v44 (ix2 r q)) = ix1 q :=
    funext fun a => Fin.ext (by match a with | ⟨0, _⟩ => rfl)
  rw [e]

end Cert.Gcn

namespace Cert.KernelIdeal.Body

open Idealize.ShloMosaic Idealize.ShloMosaic.ValueIdx Cert.KernelIdeal Cert.KernelIdeal.Gen Cert.Gcn
open scoped BigOperators

theorem shape_rows : S5000x128 = (⟨2, ![5000, 128]⟩ : Shape) := rfl

/-- The matmul body at an entry of its block: the sum over the shared axis (the casts to the narrow format are the
    identity, the accumulator starts at zero). -/
theorem mm0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact Cert.PointConv.plainMatmul_zero_apply (R := 5000) (n := 128) (k := 128)
    dot_S5000x128_S128x128_S5000x128_1_0_0_1_n_n_wf none _ _ p q

/-- On rows t of X the matmul body leaves rows t of X W. -/
theorem mm0_rows (X : Ct Ideal Cert.ReferenceIdeal.S100000x128 .f32) (W : Ct Ideal Cert.ReferenceIdeal.S128x128 .f32) (t : Fin 20) :
    k0_pay1 (F := Ideal) (rowsBlk X t) W = rowsBlk (dense X W) t := by
  funext j
  obtain ⟨p, q, rfl⟩ : ∃ (p : Fin 5000) (q : Fin 128), j = ix2 p q := ⟨j 0, j 1, eq_ix2 j⟩
  rw [mm0_apply]
  unfold rowsBlk
  rw [dense_apply]

/-- The matmul body at an entry of its block: the sum over the shared axis (the casts to the narrow format are the
    identity, the accumulator starts at zero). -/
theorem mm2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  rw [shapeCast_self]
  exact Cert.PointConv.plainMatmul_zero_apply (R := 5000) (n := 128) (k := 128)
    dot_S5000x128_S128x128_S5000x128_1_0_0_1_n_n_wf none _ _ p q

/-- On rows t of X the matmul body leaves rows t of X W. -/
theorem mm2_rows (X : Ct Ideal Cert.ReferenceIdeal.S100000x128 .f32) (W : Ct Ideal Cert.ReferenceIdeal.S128x128 .f32) (t : Fin 20) :
    k2_pay1 (F := Ideal) (rowsBlk X t) W = rowsBlk (dense X W) t := by
  funext j
  obtain ⟨p, q, rfl⟩ : ∃ (p : Fin 5000) (q : Fin 128), j = ix2 p q := ⟨j 0, j 1, eq_ix2 j⟩
  rw [mm2_apply]
  unfold rowsBlk
  rw [dense_apply]

/-- The residual matmul body at an entry of its block: the two row operands are added first. -/
theorem mmr4_apply (x r : Vec Ideal S5000x128 .f32) (w : Vec Ideal S128x128 .f32) (p : Fin 5000) (q : Fin 128) :
    k4_pay1 (F := Ideal) x r w (ix2 p q) = ∑ k : Fin 128, (x (ix2 p k) + r (ix2 p k)) * w (ix2 k q) := by
  unfold k4_pay1
  rw [shapeCast_self, shapeCast_self]
  exact Cert.PointConv.plainMatmul_zero_apply (R := 5000) (n := 128) (k := 128)
    dot_S5000x128_S128x128_S5000x128_1_0_0_1_n_n_wf none _ _ p q

/-- On rows t of X and of R the residual matmul body leaves rows t of (X + R) W. -/
theorem mmr4_rows (X R : Ct Ideal Cert.ReferenceIdeal.S100000x128 .f32) (W : Ct Ideal Cert.ReferenceIdeal.S128x128 .f32) (t : Fin 20) :
    k4_pay1 (F := Ideal) (rowsBlk X t) (rowsBlk R t) W
      = rowsBlk (dense (addf (X : FVec Ideal Cert.ReferenceIdeal.S100000x128 .f32) (R : FVec Ideal Cert.ReferenceIdeal.S100000x128 .f32)) W) t := by
  funext j
  obtain ⟨p, q, rfl⟩ : ∃ (p : Fin 5000) (q : Fin 128), j = ix2 p q := ⟨j 0, j 1, eq_ix2 j⟩
  rw [mmr4_apply]
  unfold rowsBlk
  rw [dense_apply]
  rfl

/-- The residual matmul body at an entry of its block: the two row operands are added first. -/
theorem mmr6_apply (x r : Vec Ideal S5000x128 .f32) (w : Vec Ideal S128x128 .f32) (p : Fin 5000) (q : Fin 128) :
    k6_pay1 (F := Ideal) x r w (ix2 p q) = ∑ k : Fin 128, (x (ix2 p k) + r (ix2 p k)) * w (ix2 k q) := by
  unfold k6_pay1
  rw [shapeCast_self, shapeCast_self]
  exact Cert.PointConv.plainMatmul_zero_apply (R := 5000) (n := 128) (k := 128)
    dot_S5000x128_S128x128_S5000x128_1_0_0_1_n_n_wf none _ _ p q

/-- On rows t of X and of R the residual matmul body leaves rows t of (X + R) W. -/
theorem mmr6_rows (X R : Ct Ideal Cert.ReferenceIdeal.S100000x128 .f32) (W : Ct Ideal Cert.ReferenceIdeal.S128x128 .f32) (t : Fin 20) :
    k6_pay1 (F := Ideal) (rowsBlk X t) (rowsBlk R t) W
      = rowsBlk (dense (addf (X : FVec Ideal Cert.ReferenceIdeal.S100000x128 .f32) (R : FVec Ideal Cert.ReferenceIdeal.S100000x128 .f32)) W) t := by
  funext j
  obtain ⟨p, q, rfl⟩ : ∃ (p : Fin 5000) (q : Fin 128), j = ix2 p q := ⟨j 0, j 1, eq_ix2 j⟩
  rw [mmr6_apply]
  unfold rowsBlk
  rw [dense_apply]
  rfl

/-- The residual matmul body at an entry of its block: the two row operands are added first. -/
theorem mmr8_apply (x r : Vec Ideal S5000x128 .f32) (w : Vec Ideal S128x128 .f32) (p : Fin 5000) (q : Fin 128) :
    k8_pay1 (F := Ideal) x r w (ix2 p q) = ∑ k : Fin 128, (x (ix2 p k) + r (ix2 p k)) * w (ix2 k q) := by
  unfold k8_pay1
  rw [shapeCast_self, shapeCast_self]
  exact Cert.PointConv.plainMatmul_zero_apply (R := 5000) (n := 128) (k := 128)
    dot_S5000x128_S128x128_S5000x128_1_0_0_1_n_n_wf none _ _ p q

/-- On rows t of X and of R the residual matmul body leaves rows t of (X + R) W. -/
theorem mmr8_rows (X R : Ct Ideal Cert.ReferenceIdeal.S100000x128 .f32) (W : Ct Ideal Cert.ReferenceIdeal.S128x128 .f32) (t : Fin 20) :
    k8_pay1 (F := Ideal) (rowsBlk X t) (rowsBlk R t) W
      = rowsBlk (dense (addf (X : FVec Ideal Cert.ReferenceIdeal.S100000x128 .f32) (R : FVec Ideal Cert.ReferenceIdeal.S100000x128 .f32)) W) t := by
  funext j
  obtain ⟨p, q, rfl⟩ : ∃ (p : Fin 5000) (q : Fin 128), j = ix2 p q := ⟨j 0, j 1, eq_ix2 j⟩
  rw [mmr8_apply]
  unfold rowsBlk
  rw [dense_apply]
  rfl

/-- The bias-relu body at an entry of its block: the entry plus the bias row's entry of that column, against zero. -/
theorem br1_apply (a : Vec Ideal S5000x128 .f32) (b : Vec Ideal S1x128 .f32) (p : Fin 5000) (q : Fin 128) :
    k1_pay1 (F := Ideal) a b (ix2 p q) = max (a (ix2 p q) + b (ix2 (0 : Fin 1) q)) (FloatOps.ofBits (F := Ideal) .f32 0x00000000#32) := by
  unfold k1_pay1
  rw [shapeCast_self, shapeCast_self]
  show max (a (ix2 p q) + broadcastTo S5000x128 b broadcasts_S1x128_S5000x128 (ix2 p q)) _ = _
  rw [broadcastTo_apply b broadcasts_S1x128_S5000x128 (ix2 p q) (ix2 (0 : Fin 1) q) (fun a => by
    match a with
    | ⟨0, _⟩ => rfl
    | ⟨1, _⟩ => rfl)]
  rfl

/-- On rows t of A and the bias as a row the bias-relu body leaves rows t of relu(A + b). -/
theorem br1_rows (A : Ct Ideal Cert.ReferenceIdeal.S100000x128 .f32) (b : Ct Ideal Cert.ReferenceIdeal.S128 .f32) (t : Fin 20) :
    k1_pay1 (F := Ideal) (rowsBlk A t) (asRow b) = rowsBlk (biasRelu A b) t := by
  funext j
  obtain ⟨p, q, rfl⟩ : ∃ (p : Fin 5000) (q : Fin 128), j = ix2 p q := ⟨j 0, j 1, eq_ix2 j⟩
  rw [br1_apply]
  unfold rowsBlk
  rw [biasRelu_apply] <;> rfl

/-- The bias-relu body at an entry of its block: the entry plus the bias row's entry of that column, against zero. -/
theorem br3_apply (a : Vec Ideal S5000x128 .f32) (b : Vec Ideal S1x128 .f32) (p : Fin 5000) (q : Fin 128) :
    k3_pay1 (F := Ideal) a b (ix2 p q) = max (a (ix2 p q) + b (ix2 (0 : Fin 1) q)) (FloatOps.ofBits (F := Ideal) .f32 0x00000000#32) := by
  unfold k3_pay1
  rw [shapeCast_self, shapeCast_self]
  show max (a (ix2 p q) + broadcastTo S5000x128 b broadcasts_S1x128_S5000x128 (ix2 p q)) _ = _
  rw [broadcastTo_apply b broadcasts_S1x128_S5000x128 (ix2 p q) (ix2 (0 : Fin 1) q) (fun a => by
    match a with
    | ⟨0, _⟩ => rfl
    | ⟨1, _⟩ => rfl)]
  rfl

/-- On rows t of A and the bias as a row the bias-relu body leaves rows t of relu(A + b). -/
theorem br3_rows (A : Ct Ideal Cert.ReferenceIdeal.S100000x128 .f32) (b : Ct Ideal Cert.ReferenceIdeal.S128 .f32) (t : Fin 20) :
    k3_pay1 (F := Ideal) (rowsBlk A t) (asRow b) = rowsBlk (biasRelu A b) t := by
  funext j
  obtain ⟨p, q, rfl⟩ : ∃ (p : Fin 5000) (q : Fin 128), j = ix2 p q := ⟨j 0, j 1, eq_ix2 j⟩
  rw [br3_apply]
  unfold rowsBlk
  rw [biasRelu_apply] <;> rfl

/-- The bias-relu body at an entry of its block: the entry plus the bias row's entry of that column, against zero. -/
theorem br5_apply (a : Vec Ideal S5000x128 .f32) (b : Vec Ideal S1x128 .f32) (p : Fin 5000) (q : Fin 128) :
    k5_pay1 (F := Ideal) a b (ix2 p q) = max (a (ix2 p q) + b (ix2 (0 : Fin 1) q)) (FloatOps.ofBits (F := Ideal) .f32 0x00000000#32) := by
  unfold k5_pay1
  rw [shapeCast_self, shapeCast_self]
  show max (a (ix2 p q) + broadcastTo S5000x128 b broadcasts_S1x128_S5000x128 (ix2 p q)) _ = _
  rw [broadcastTo_apply b broadcasts_S1x128_S5000x128 (ix2 p q) (ix2 (0 : Fin 1) q) (fun a => by
    match a with
    | ⟨0, _⟩ => rfl
    | ⟨1, _⟩ => rfl)]
  rfl

/-- On rows t of A and the bias as a row the bias-relu body leaves rows t of relu(A + b). -/
theorem br5_rows (A : Ct Ideal Cert.ReferenceIdeal.S100000x128 .f32) (b : Ct Ideal Cert.ReferenceIdeal.S128 .f32) (t : Fin 20) :
    k5_pay1 (F := Ideal) (rowsBlk A t) (asRow b) = rowsBlk (biasRelu A b) t := by
  funext j
  obtain ⟨p, q, rfl⟩ : ∃ (p : Fin 5000) (q : Fin 128), j = ix2 p q := ⟨j 0, j 1, eq_ix2 j⟩
  rw [br5_apply]
  unfold rowsBlk
  rw [biasRelu_apply] <;> rfl

/-- The bias-relu body at an entry of its block: the entry plus the bias row's entry of that column, against zero. -/
theorem br7_apply (a : Vec Ideal S5000x128 .f32) (b : Vec Ideal S1x128 .f32) (p : Fin 5000) (q : Fin 128) :
    k7_pay1 (F := Ideal) a b (ix2 p q) = max (a (ix2 p q) + b (ix2 (0 : Fin 1) q)) (FloatOps.ofBits (F := Ideal) .f32 0x00000000#32) := by
  unfold k7_pay1
  rw [shapeCast_self, shapeCast_self]
  show max (a (ix2 p q) + broadcastTo S5000x128 b broadcasts_S1x128_S5000x128 (ix2 p q)) _ = _
  rw [broadcastTo_apply b broadcasts_S1x128_S5000x128 (ix2 p q) (ix2 (0 : Fin 1) q) (fun a => by
    match a with
    | ⟨0, _⟩ => rfl
    | ⟨1, _⟩ => rfl)]
  rfl

/-- On rows t of A and the bias as a row the bias-relu body leaves rows t of relu(A + b). -/
theorem br7_rows (A : Ct Ideal Cert.ReferenceIdeal.S100000x128 .f32) (b : Ct Ideal Cert.ReferenceIdeal.S128 .f32) (t : Fin 20) :
    k7_pay1 (F := Ideal) (rowsBlk A t) (asRow b) = rowsBlk (biasRelu A b) t := by
  funext j
  obtain ⟨p, q, rfl⟩ : ∃ (p : Fin 5000) (q : Fin 128), j = ix2 p q := ⟨j 0, j 1, eq_ix2 j⟩
  rw [br7_apply]
  unfold rowsBlk
  rw [biasRelu_apply] <;> rfl

/-- The bias-relu body at an entry of its block: the entry plus the bias row's entry of that column, against zero. -/
theorem br9_apply (a : Vec Ideal S5000x128 .f32) (b : Vec Ideal S1x128 .f32) (p : Fin 5000) (q : Fin 128) :
    k9_pay1 (F := Ideal) a b (ix2 p q) = max (a (ix2 p q) + b (ix2 (0 : Fin 1) q)) (FloatOps.ofBits (F := Ideal) .f32 0x00000000#32) := by
  unfold k9_pay1
  rw [shapeCast_self, shapeCast_self]
  show max (a (ix2 p q) + broadcastTo S5000x128 b broadcasts_S1x128_S5000x128 (ix2 p q)) _ = _
  rw [broadcastTo_apply b broadcasts_S1x128_S5000x128 (ix2 p q) (ix2 (0 : Fin 1) q) (fun a => by
    match a with
    | ⟨0, _⟩ => rfl
    | ⟨1, _⟩ => rfl)]
  rfl

/-- On rows t of A and the bias as a row the bias-relu body leaves rows t of relu(A + b). -/
theorem br9_rows (A : Ct Ideal Cert.ReferenceIdeal.S100000x128 .f32) (b : Ct Ideal Cert.ReferenceIdeal.S128 .f32) (t : Fin 20) :
    k9_pay1 (F := Ideal) (rowsBlk A t) (asRow b) = rowsBlk (biasRelu A b) t := by
  funext j
  obtain ⟨p, q, rfl⟩ : ∃ (p : Fin 5000) (q : Fin 128), j = ix2 p q := ⟨j 0, j 1, eq_ix2 j⟩
  rw [br9_apply]
  unfold rowsBlk
  rw [biasRelu_apply] <;> rfl

end Cert.KernelIdeal.Body

end
-- ==== Proof.Region0.lean ====
/-
  pallas_call 0: what its output array holds when it returns.

  Its grid has 20 points; at point t the row windows hold rows 5000 t … 5000 t + 4999 of their arrays, the small operand's
  window the whole of its array, and the body's one store fills the output block. The 20 output blocks tile the 100000
  rows, so the output array ends as the dense transform of its two operands, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region0

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Window 0's block at point t: rows t of its array. -/
theorem iblk_0 (c : Dev nD) (t : Fin cfg0.N) :
    iblk0 V c 0 t = rowsBlk (V c main_arg0) ⟨t.val, lt_of_lt_of_eq t.isLt N_0⟩ := by
  obtain ⟨e0, e1, e2, e3, e4, e5⟩ := idx_facts t
  funext y
  show V c main_arg0 (((cfg0.win 0).blk t).view.emb y) = V c main_arg0 _
  refine congrArg (V c main_arg0) (funext fun a => Fin.ext ?_)
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

/-- Window 1's block at every point: the whole of its array. -/
theorem iblk_1 (c : Dev nD) (t : Fin cfg0.N) : iblk0 V c 1 t = V c main_arg2 := by
  obtain ⟨e0, e1, e2, e3, e4, e5⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The output window's block at point t, read off any array: rows t of it. -/
theorem oblk (c : Dev nD) (G : Buf (Elt Ideal) ((c : Thread nD τ).loc main_v29)) (t : Fin cfg0.N) :
    ((cfg0.win 2).blk t).view.read (Elt Ideal) G = rowsBlk G ⟨t.val, lt_of_lt_of_eq t.isLt N_0⟩ := by
  obtain ⟨e0, e1, e2, e3, e4, e5⟩ := idx_facts t
  funext y
  show G (((cfg0.win 2).blk t).view.emb y) = G _
  refine congrArg G (funext fun a => Fin.ext ?_)
  match a with
  | ⟨0, _⟩ => show win0_2.index t (0 : Fin 2) * 5000 + 1 * (y 0).val = 5000 * t.val + (y 0).val; omega
  | ⟨1, _⟩ => show win0_2.index t (1 : Fin 2) * 128 + 1 * (y 1).val = (y 1).val; omega

/-- What point t writes back is rows t of the whole-array function. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2, oblk c, iblk_0, iblk_1]
  unfold out0_2
  rw [View.canon_unit_zero hz]
  simp only [View.ld_unit_zero (S := S5000x128) hz, View.ld_unit_zero (S := S128x128) hz]
  exact Body.mm0_rows _ _ _

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row n lies in block n / 5000: the 20 blocks cover the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by rw [show cfg0.N = 20 from N_0]; omega
  obtain ⟨e0, e1, e2, e3, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    omega

/-- The output array when the call returns. -/
theorem value (c : Dev nD) :
    (dat0 V c).arrAt 2 cfg0.N = dense (V c main_arg0) (V c main_arg2) :=
  (dat0 V c).arrAt_eq_of_cover 2 _ (fun t _ => flushed_eq V c t) cover

end Cert.KernelIdeal.Region0

end
-- ==== Proof.Region1.lean ====
/-
  pallas_call 1: what its output array holds when it returns.

  Its grid has 20 points; at point t the row windows hold rows 5000 t … 5000 t + 4999 of their arrays, the small operand's
  window the whole of its array, and the body's one store fills the output block. The 20 output blocks tile the 100000
  rows, so the output array ends as bias-relu of its row operand and the bias, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region1

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Window 0's block at point t: rows t of its array. -/
theorem iblk_0 (c : Dev nD) (t : Fin cfg1.N) :
    iblk1 V c 0 t = rowsBlk (V c main_v42) ⟨t.val, lt_of_lt_of_eq t.isLt N_1⟩ := by
  obtain ⟨e0, e1, e2, e3, e4, e5⟩ := idx_facts t
  funext y
  show V c main_v42 (((cfg1.win 0).blk t).view.emb y) = V c main_v42 _
  refine congrArg (V c main_v42) (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- Window 1's block at every point: the whole of its array. -/
theorem iblk_1 (c : Dev nD) (t : Fin cfg1.N) : iblk1 V c 1 t = V c main_v43 := by
  obtain ⟨e0, e1, e2, e3, e4, e5⟩ := idx_facts t
  funext y
  show V c main_v43 (((cfg1.win 1).blk t).view.emb y) = V c main_v43 y
  refine congrArg (V c main_v43) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The output window's block at point t, read off any array: rows t of it. -/
theorem oblk (c : Dev nD) (G : Buf (Elt Ideal) ((c : Thread nD τ).loc main_v44)) (t : Fin cfg1.N) :
    ((cfg1.win 2).blk t).view.read (Elt Ideal) G = rowsBlk G ⟨t.val, lt_of_lt_of_eq t.isLt N_1⟩ := by
  obtain ⟨e0, e1, e2, e3, e4, e5⟩ := idx_facts t
  funext y
  show G (((cfg1.win 2).blk t).view.emb y) = G _
  refine congrArg G (funext fun a => Fin.ext ?_)
  match a with
  | ⟨0, _⟩ => show win1_2.index t (0 : Fin 2) * 5000 + 1 * (y 0).val = 5000 * t.val + (y 0).val; omega
  | ⟨1, _⟩ => show win1_2.index t (1 : Fin 2) * 128 + 1 * (y 1).val = (y 1).val; omega

/-- What point t writes back is rows t of the whole-array function. -/
theorem flushed_eq (c : Dev nD) (b : Ct Ideal Cert.ReferenceIdeal.S128 .f32) (hb : V c main_v43 = asRow b) (t : Fin cfg1.N) :
    (dat1 V c).flushed 2 t = ((cfg1.win 2).blk t).view.read (Elt Ideal) (biasRelu (V c main_v42) b) := by
  show (cfg1.win 2).cut (grid1.coords t) ((dat1 V c).after 2 t) = _
  rw [after1_2, oblk c, iblk_0, iblk_1, hb]
  unfold out1_2
  rw [View.canon_unit_zero hz]
  simp only [View.ld_unit_zero (S := S5000x128) hz, View.ld_unit_zero (S := S1x128) hz]
  exact Body.br1_rows _ _ _

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row n lies in block n / 5000: the 20 blocks cover the array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by rw [show cfg1.N = 20 from N_1]; omega
  obtain ⟨e0, e1, e2, e3, e4, e5⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    omega

/-- The output array when the call returns. -/
theorem value (c : Dev nD) (b : Ct Ideal Cert.ReferenceIdeal.S128 .f32) (hb : V c main_v43 = asRow b) :
    (dat1 V c).arrAt 2 cfg1.N = biasRelu (V c main_v42) b :=
  (dat1 V c).arrAt_eq_of_cover 2 _ (fun t _ => flushed_eq V c b hb t) cover

end Cert.KernelIdeal.Region1

end
-- ==== Proof.Region2.lean ====
/-
  pallas_call 2: what its output array holds when it returns.

  Its grid has 20 points; at point t the row windows hold rows 5000 t … 5000 t + 4999 of their arrays, the small operand's
  window the whole of its array, and the body's one store fills the output block. The 20 output blocks tile the 100000
  rows, so the output array ends as the dense transform of its two operands, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region2

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Window 0's block at point t: rows t of its array. -/
theorem iblk_0 (c : Dev nD) (t : Fin cfg2.N) :
    iblk2 V c 0 t = rowsBlk (V c main_v44) ⟨t.val, lt_of_lt_of_eq t.isLt N_2⟩ := by
  obtain ⟨e0, e1, e2, e3, e4, e5⟩ := idx_facts t
  funext y
  show V c main_v44 (((cfg2.win 0).blk t).view.emb y) = V c main_v44 _
  refine congrArg (V c main_v44) (funext fun a => Fin.ext ?_)
  match a with
  | ⟨0, _⟩ => show win2_0.index t (0 : Fin 2) * 5000 + 1 * (y 0).val = 5000 * t.val + (y 0).val; omega
  | ⟨1, _⟩ => show win2_0.index t (1 : Fin 2) * 128 + 1 * (y 1).val = (y 1).val; omega

/-- Window 1's block at every point: the whole of its array. -/
theorem iblk_1 (c : Dev nD) (t : Fin cfg2.N) : iblk2 V c 1 t = V c main_arg4 := by
  obtain ⟨e0, e1, e2, e3, e4, e5⟩ := idx_facts t
  funext y
  show V c main_arg4 (((cfg2.win 1).blk t).view.emb y) = V c main_arg4 y
  refine congrArg (V c main_arg4) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The output window's block at point t, read off any array: rows t of it. -/
theorem oblk (c : Dev nD) (G : Buf (Elt Ideal) ((c : Thread nD τ).loc main_v45)) (t : Fin cfg2.N) :
    ((cfg2.win 2).blk t).view.read (Elt Ideal) G = rowsBlk G ⟨t.val, lt_of_lt_of_eq t.isLt N_2⟩ := by
  obtain ⟨e0, e1, e2, e3, e4, e5⟩ := idx_facts t
  funext y
  show G (((cfg2.win 2).blk t).view.emb y) = G _
  refine congrArg G (funext fun a => Fin.ext ?_)
  match a with
  | ⟨0, _⟩ => show win2_2.index t (0 : Fin 2) * 5000 + 1 * (y 0).val = 5000 * t.val + (y 0).val; omega
  | ⟨1, _⟩ => show win2_2.index t (1 : Fin 2) * 128 + 1 * (y 1).val = (y 1).val; omega

/-- What point t writes back is rows t of the whole-array function. -/
theorem flushed_eq (c : Dev nD) (t : Fin cfg2.N) :
    (dat2 V c).flushed 2 t = ((cfg2.win 2).blk t).view.read (Elt Ideal) (dense (V c main_v44) (V c main_arg4)) := by
  show (cfg2.win 2).cut (grid2.coords t) ((dat2 V c).after 2 t) = _
  rw [after2_2, oblk c, iblk_0, iblk_1]
  unfold out2_2
  rw [View.canon_unit_zero hz]
  simp only [View.ld_unit_zero (S := S5000x128) hz, View.ld_unit_zero (S := S128x128) hz]
  exact Body.mm2_rows _ _ _

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Row n lies in block n / 5000: the 20 blocks cover the array. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := by rw [show cfg2.N = 20 from N_2]; omega
  obtain ⟨e0, e1, e2, e3, e4, e5⟩ := idx_facts ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    omega

/-- The output array when the call returns. -/
theorem value (c : Dev nD) :
    (dat2 V c).arrAt 2 cfg2.N = dense (V c main_v44) (V c main_arg4) :=
  (dat2 V c).arrAt_eq_of_cover 2 _ (fun t _ => flushed_eq V c t) cover

end Cert.KernelIdeal.Region2

end
-- ==== Proof.Region3.lean ====
/-
  pallas_call 3: what its output array holds when it returns.

  Its grid has 20 points; at point t the row windows hold rows 5000 t … 5000 t + 4999 of their arrays, the small operand's
  window the whole of its array, and the body's one store fills the output block. The 20 output blocks tile the 100000
  rows, so the output array ends as bias-relu of its row operand and the bias, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region3

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Window 0's block at point t: rows t of its array. -/
theorem iblk_0 (c : Dev nD) (t : Fin cfg3.N) :
    iblk3 V c 0 t = rowsBlk (V c main_v58) ⟨t.val, lt_of_lt_of_eq t.isLt N_3⟩ := by
  obtain ⟨e0, e1, e2, e3, e4, e5⟩ := idx_facts t
  funext y
  show V c main_v58 (((cfg3.win 0).blk t).view.emb y) = V c main_v58 _
  refine congrArg (V c main_v58) (funext fun a => Fin.ext ?_)
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- Window 1's block at every point: the whole of its array. -/
theorem iblk_1 (c : Dev nD) (t : Fin cfg3.N) : iblk3 V c 1 t = V c main_v59 := by
  obtain ⟨e0, e1, e2, e3, e4, e5⟩ := idx_facts t
  funext y
  show V c main_v59 (((cfg3.win 1).blk t).view.emb y) = V c main_v59 y
  refine congrArg (V c main_v59) (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The output window's block at point t, read off any array: rows t of it. -/
theorem oblk (c : Dev nD) (G : Buf (Elt Ideal) ((c : Thread nD τ).loc main_v60)) (t : Fin cfg3.N) :
    ((cfg3.win 2).blk t).view.read (Elt Ideal) G = rowsBlk G ⟨t.val, lt_of_lt_of_eq t.isLt N_3⟩ := by
  obtain ⟨e0, e1, e2, e3, e4, e5⟩ := idx_facts t
  funext y
  show G (((cfg3.win 2).blk t).view.emb y) = G _
  refine congrArg G (funext fun a => Fin.ext ?_)
  match a with
  | ⟨0, _⟩ => show win3_2.index t (0 : Fin 2) * 5000 + 1 * (y 0).val = 5000 * t.val + (y 0).val; omega
  | ⟨1, _⟩ => show win3_2.index t (1 : Fin 2) * 128 + 1 * (y 1).val = (y 1).val; omega

/-- What point t writes back is rows t of the whole-array function. -/
theorem flushed_eq (c : Dev nD) (b : Ct Ideal Cert.ReferenceIdeal.S128 .f32) (hb : V c main_v59 = asRow b) (t : Fin cfg3.N) :
    (dat3 V c).flushed 2 t = ((cfg3.win 2).blk t).view.read (Elt Ideal) (biasRelu (V c main_v58) b) := by
  show (cfg3.win 2).cut (grid3.coords t) ((dat3 V c).after 2 t) = _
  rw [after3_2, oblk c, iblk_0, iblk_1, hb]
  unfold out3_2
  rw [View.canon_unit_zero hz]
  simp only [View.ld_unit_zero (S := S5000x128) hz, View.ld_unit_zero (S := S1x128) hz]
  exact Body.br3_rows _ _ _

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Row n lies in block n / 5000: the 20 blocks cover the array. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : (i 0).val / 5000 < cfg3.N := by rw [show cfg3.N = 20 from N_3]; omega
  obtain ⟨e0, e1, e2, e3, e4, e5⟩ := idx_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hN⟩ (1 : Fin 2) * 128 ≤ (i 1).val ∧ (i 1).val < win3_2.index ⟨(i 0).val / 5000, hN⟩ (1 : Fin 2) * 128 + 128
    omega

/-- The output array when the call returns. -/
theorem value (c : Dev nD) (b : Ct Ideal Cert.ReferenceIdeal.S128 .f32) (hb : V c main_v59 = asRow b) :
    (dat3 V c).arrAt 2 cfg3.N = biasRelu (V c main_v58) b :=
  (dat3 V c).arrAt_eq_of_cover 2 _ (fun t _ => flushed_eq V c b hb t) cover

end Cert.KernelIdeal.Region3

end
-- ==== Proof.Region4.lean ====
/-
  pallas_call 4: what its output array holds when it returns.

  Its grid has 20 points; at point t the row windows hold rows 5000 t … 5000 t + 4999 of their arrays, the small operand's
  window the whole of its array, and the body's one store fills the output block. The 20 output blocks tile the 100000
  rows, so the output array ends as the dense transform of the sum of its two row operands, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region4

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Window 0's block at point t: rows t of its array. -/
theorem iblk_0 (c : Dev nD) (t : Fin cfg4.N) :
    iblk4 V c 0 t = rowsBlk (V c main_v60) ⟨t.val, lt_of_lt_of_eq t.isLt N_4⟩ := by
  obtain ⟨e0, e1, e2, e3, e4, e5, e6, e7⟩ := idx_facts t
  funext y
  show V c main_v60 (((cfg4.win 0).blk t).view.emb y) = V c main_v60 _
  refine congrArg (V c main_v60) (funext fun a => Fin.ext ?_)
  match a with
  | ⟨0, _⟩ => show win4_0.index t (0 : Fin 2) * 5000 + 1 * (y 0).val = 5000 * t.val + (y 0).val; omega
  | ⟨1, _⟩ => show win4_0.index t (1 : Fin 2) * 128 + 1 * (y 1).val = (y 1).val; omega

/-- Window 1's block at point t: rows t of its array. -/
theorem iblk_1 (c : Dev nD) (t : Fin cfg4.N) :
    iblk4 V c 1 t = rowsBlk (V c main_v44) ⟨t.val, lt_of_lt_of_eq t.isLt N_4⟩ := by
  obtain ⟨e0, e1, e2, e3, e4, e5, e6, e7⟩ := idx_facts t
  funext y
  show V c main_v44 (((cfg4.win 1).blk t).view.emb y) = V c main_v44 _
  refine congrArg (V c main_v44) (funext fun a => Fin.ext ?_)
  match a with
  | ⟨0, _⟩ => show win4_1.index t (0 : Fin 2) * 5000 + 1 * (y 0).val = 5000 * t.val + (y 0).val; omega
  | ⟨1, _⟩ => show win4_1.index t (1 : Fin 2) * 128 + 1 * (y 1).val = (y 1).val; omega

/-- Window 2's block at every point: the whole of its array. -/
theorem iblk_2 (c : Dev nD) (t : Fin cfg4.N) : iblk4 V c 2 t = V c main_arg6 := by
  obtain ⟨e0, e1, e2, e3, e4, e5, e6, e7⟩ := idx_facts t
  funext y
  show V c main_arg6 (((cfg4.win 2).blk t).view.emb y) = V c main_arg6 y
  refine congrArg (V c main_arg6) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The output window's block at point t, read off any array: rows t of it. -/
theorem oblk (c : Dev nD) (G : Buf (Elt Ideal) ((c : Thread nD τ).loc main_v61)) (t : Fin cfg4.N) :
    ((cfg4.win 3).blk t).view.read (Elt Ideal) G = rowsBlk G ⟨t.val, lt_of_lt_of_eq t.isLt N_4⟩ := by
  obtain ⟨e0, e1, e2, e3, e4, e5, e6, e7⟩ := idx_facts t
  funext y
  show G (((cfg4.win 3).blk t).view.emb y) = G _
  refine congrArg G (funext fun a => Fin.ext ?_)
  match a with
  | ⟨0, _⟩ => show win4_3.index t (0 : Fin 2) * 5000 + 1 * (y 0).val = 5000 * t.val + (y 0).val; omega
  | ⟨1, _⟩ => show win4_3.index t (1 : Fin 2) * 128 + 1 * (y 1).val = (y 1).val; omega

/-- What point t writes back is rows t of the whole-array function. -/
theorem flushed_eq (c : Dev nD) (t : Fin cfg4.N) :
    (dat4 V c).flushed 3 t = ((cfg4.win 3).blk t).view.read (Elt Ideal) (dense (addf (F := Ideal) (s := Cert.ReferenceIdeal.S100000x128) (φ := .f32) (V c main_v60) (V c main_v44)) (V c main_arg6)) := by
  show (cfg4.win 3).cut (grid4.coords t) ((dat4 V c).after 3 t) = _
  rw [after4_3, oblk c, iblk_0, iblk_1, iblk_2]
  unfold out4_3
  rw [View.canon_unit_zero hz]
  simp only [View.ld_unit_zero (S := S5000x128) hz, View.ld_unit_zero (S := S128x128) hz]
  exact Body.mmr4_rows _ _ _ _

/-- An index of the output array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v61).slice (win4_3.rect t)).set ↔ _
  rw [View.set_slice_whole, Rect.mem_set_unit]
  exact Iff.rfl

/-- Row n lies in block n / 5000: the 20 blocks cover the array. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : (i 0).val / 5000 < cfg4.N := by rw [show cfg4.N = 20 from N_4]; omega
  obtain ⟨e0, e1, e2, e3, e4, e5, e6, e7⟩ := idx_facts ⟨(i 0).val / 5000, hN⟩
  refine ⟨⟨(i 0).val / 5000, hN⟩, flush4_3 _, ?_⟩
  rw [mem_blk]
  intro a
  match a with
  | ⟨0, _⟩ =>
    show win4_3.index ⟨(i 0).val / 5000, hN⟩ (0 : Fin 2) * 5000 ≤ (i 0).val ∧ (i 0).val < win4_3.index ⟨(i 0).val / 5000, hN⟩ (0 : Fin 2) * 5000 + 5000
    rw [e6]
    show (i 0).val / 5000 * 5000 ≤ (i 0).val ∧ (i 0).val < (i 0).val / 5000 * 5000 + 5000
    omega
  | ⟨1, _⟩ =>
    show win4_3.index ⟨(i 0).val / 5000, hN⟩ (1 : Fin 2) * 128 ≤ (i 1).val ∧ (i 1).val < win4_3.index ⟨(i 0).val / 5000, hN⟩ (1 : Fin 2) * 128 + 128
    omega

/-- The output array when the call returns. -/
theorem value (c : Dev nD) :
    (dat4 V c).arrAt 3 cfg4.N = dense (addf (F := Ideal) (s := Cert.ReferenceIdeal.S100000x128) (φ := .f32) (V c main_v60) (V c main_v44)) (V c main_arg6) :=
  (dat4 V c).arrAt_eq_of_cover 3 _ (fun t _ => flushed_eq V c t) cover

end Cert.KernelIdeal.Region4

end
-- ==== Proof.Region5.lean ====
/-
  pallas_call 5: what its output array holds when it returns.

  Its grid has 20 points; at point t the row windows hold rows 5000 t … 5000 t + 4999 of their arrays, the small operand's
  window the whole of its array, and the body's one store fills the output block. The 20 output blocks tile the 100000
  rows, so the output array ends as bias-relu of its row operand and the bias, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region5

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Window 0's block at point t: rows t of its array. -/
theorem iblk_0 (c : Dev nD) (t : Fin cfg5.N) :
    iblk5 V c 0 t = rowsBlk (V c main_v74) ⟨t.val, lt_of_lt_of_eq t.isLt N_5⟩ := by
  obtain ⟨e0, e1, e2, e3, e4, e5⟩ := idx_facts t
  funext y
  show V c main_v74 (((cfg5.win 0).blk t).view.emb y) = V c main_v74 _
  refine congrArg (V c main_v74) (funext fun a => Fin.ext ?_)
  match a with
  | ⟨0, _⟩ => show win5_0.index t (0 : Fin 2) * 5000 + 1 * (y 0).val = 5000 * t.val + (y 0).val; omega
  | ⟨1, _⟩ => show win5_0.index t (1 : Fin 2) * 128 + 1 * (y 1).val = (y 1).val; omega

/-- Window 1's block at every point: the whole of its array. -/
theorem iblk_1 (c : Dev nD) (t : Fin cfg5.N) : iblk5 V c 1 t = V c main_v75 := by
  obtain ⟨e0, e1, e2, e3, e4, e5⟩ := idx_facts t
  funext y
  show V c main_v75 (((cfg5.win 1).blk t).view.emb y) = V c main_v75 y
  refine congrArg (V c main_v75) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The output window's block at point t, read off any array: rows t of it. -/
theorem oblk (c : Dev nD) (G : Buf (Elt Ideal) ((c : Thread nD τ).loc main_v76)) (t : Fin cfg5.N) :
    ((cfg5.win 2).blk t).view.read (Elt Ideal) G = rowsBlk G ⟨t.val, lt_of_lt_of_eq t.isLt N_5⟩ := by
  obtain ⟨e0, e1, e2, e3, e4, e5⟩ := idx_facts t
  funext y
  show G (((cfg5.win 2).blk t).view.emb y) = G _
  refine congrArg G (funext fun a => Fin.ext ?_)
  match a with
  | ⟨0, _⟩ => show win5_2.index t (0 : Fin 2) * 5000 + 1 * (y 0).val = 5000 * t.val + (y 0).val; omega
  | ⟨1, _⟩ => show win5_2.index t (1 : Fin 2) * 128 + 1 * (y 1).val = (y 1).val; omega

/-- What point t writes back is rows t of the whole-array function. -/
theorem flushed_eq (c : Dev nD) (b : Ct Ideal Cert.ReferenceIdeal.S128 .f32) (hb : V c main_v75 = asRow b) (t : Fin cfg5.N) :
    (dat5 V c).flushed 2 t = ((cfg5.win 2).blk t).view.read (Elt Ideal) (biasRelu (V c main_v74) b) := by
  show (cfg5.win 2).cut (grid5.coords t) ((dat5 V c).after 2 t) = _
  rw [after5_2, oblk c, iblk_0, iblk_1, hb]
  unfold out5_2
  rw [View.canon_unit_zero hz]
  simp only [View.ld_unit_zero (S := S5000x128) hz, View.ld_unit_zero (S := S1x128) hz]
  exact Body.br5_rows _ _ _

/-- An index of the output array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v76).slice (win5_2.rect t)).set ↔ _
  rw [View.set_slice_whole, Rect.mem_set_unit]
  exact Iff.rfl

/-- Row n lies in block n / 5000: the 20 blocks cover the array. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : (i 0).val / 5000 < cfg5.N := by rw [show cfg5.N = 20 from N_5]; omega
  obtain ⟨e0, e1, e2, e3, e4, e5⟩ := idx_facts ⟨(i 0).val / 5000, hN⟩
  refine ⟨⟨(i 0).val / 5000, hN⟩, flush5_2 _, ?_⟩
  rw [mem_blk]
  intro a
  match a with
  | ⟨0, _⟩ =>
    show win5_2.index ⟨(i 0).val / 5000, hN⟩ (0 : Fin 2) * 5000 ≤ (i 0).val ∧ (i 0).val < win5_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, hN⟩ (1 : Fin 2) * 128 ≤ (i 1).val ∧ (i 1).val < win5_2.index ⟨(i 0).val / 5000, hN⟩ (1 : Fin 2) * 128 + 128
    omega

/-- The output array when the call returns. -/
theorem value (c : Dev nD) (b : Ct Ideal Cert.ReferenceIdeal.S128 .f32) (hb : V c main_v75 = asRow b) :
    (dat5 V c).arrAt 2 cfg5.N = biasRelu (V c main_v74) b :=
  (dat5 V c).arrAt_eq_of_cover 2 _ (fun t _ => flushed_eq V c b hb t) cover

end Cert.KernelIdeal.Region5

end
-- ==== Proof.Region6.lean ====
/-
  pallas_call 6: what its output array holds when it returns.

  Its grid has 20 points; at point t the row windows hold rows 5000 t … 5000 t + 4999 of their arrays, the small operand's
  window the whole of its array, and the body's one store fills the output block. The 20 output blocks tile the 100000
  rows, so the output array ends as the dense transform of the sum of its two row operands, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region6

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- Window 0's block at point t: rows t of its array. -/
theorem iblk_0 (c : Dev nD) (t : Fin cfg6.N) :
    iblk6 V c 0 t = rowsBlk (V c main_v60) ⟨t.val, lt_of_lt_of_eq t.isLt N_6⟩ := by
  obtain ⟨e0, e1, e2, e3, e4, e5, e6, e7⟩ := idx_facts t
  funext y
  show V c main_v60 (((cfg6.win 0).blk t).view.emb y) = V c main_v60 _
  refine congrArg (V c main_v60) (funext fun a => Fin.ext ?_)
  match a with
  | ⟨0, _⟩ => show win6_0.index t (0 : Fin 2) * 5000 + 1 * (y 0).val = 5000 * t.val + (y 0).val; omega
  | ⟨1, _⟩ => show win6_0.index t (1 : Fin 2) * 128 + 1 * (y 1).val = (y 1).val; omega

/-- Window 1's block at point t: rows t of its array. -/
theorem iblk_1 (c : Dev nD) (t : Fin cfg6.N) :
    iblk6 V c 1 t = rowsBlk (V c main_v76) ⟨t.val, lt_of_lt_of_eq t.isLt N_6⟩ := by
  obtain ⟨e0, e1, e2, e3, e4, e5, e6, e7⟩ := idx_facts t
  funext y
  show V c main_v76 (((cfg6.win 1).blk t).view.emb y) = V c main_v76 _
  refine congrArg (V c main_v76) (funext fun a => Fin.ext ?_)
  match a with
  | ⟨0, _⟩ => show win6_1.index t (0 : Fin 2) * 5000 + 1 * (y 0).val = 5000 * t.val + (y 0).val; omega
  | ⟨1, _⟩ => show win6_1.index t (1 : Fin 2) * 128 + 1 * (y 1).val = (y 1).val; omega

/-- Window 2's block at every point: the whole of its array. -/
theorem iblk_2 (c : Dev nD) (t : Fin cfg6.N) : iblk6 V c 2 t = V c main_arg8 := by
  obtain ⟨e0, e1, e2, e3, e4, e5, e6, e7⟩ := idx_facts t
  funext y
  show V c main_arg8 (((cfg6.win 2).blk t).view.emb y) = V c main_arg8 y
  refine congrArg (V c main_arg8) (funext fun a => Fin.ext ?_)
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- The output window's block at point t, read off any array: rows t of it. -/
theorem oblk (c : Dev nD) (G : Buf (Elt Ideal) ((c : Thread nD τ).loc main_v77)) (t : Fin cfg6.N) :
    ((cfg6.win 3).blk t).view.read (Elt Ideal) G = rowsBlk G ⟨t.val, lt_of_lt_of_eq t.isLt N_6⟩ := by
  obtain ⟨e0, e1, e2, e3, e4, e5, e6, e7⟩ := idx_facts t
  funext y
  show G (((cfg6.win 3).blk t).view.emb y) = G _
  refine congrArg G (funext fun a => Fin.ext ?_)
  match a with
  | ⟨0, _⟩ => show win6_3.index t (0 : Fin 2) * 5000 + 1 * (y 0).val = 5000 * t.val + (y 0).val; omega
  | ⟨1, _⟩ => show win6_3.index t (1 : Fin 2) * 128 + 1 * (y 1).val = (y 1).val; omega

/-- What point t writes back is rows t of the whole-array function. -/
theorem flushed_eq (c : Dev nD) (t : Fin cfg6.N) :
    (dat6 V c).flushed 3 t = ((cfg6.win 3).blk t).view.read (Elt Ideal) (dense (addf (F := Ideal) (s := Cert.ReferenceIdeal.S100000x128) (φ := .f32) (V c main_v60) (V c main_v76)) (V c main_arg8)) := by
  show (cfg6.win 3).cut (grid6.coords t) ((dat6 V c).after 3 t) = _
  rw [after6_3, oblk c, iblk_0, iblk_1, iblk_2]
  unfold out6_3
  rw [View.canon_unit_zero hz]
  simp only [View.ld_unit_zero (S := S5000x128) hz, View.ld_unit_zero (S := S128x128) hz]
  exact Body.mmr6_rows _ _ _ _

/-- An index of the output array is in point t's block iff each coordinate is in the block's range on its axis. -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v77).slice (win6_3.rect t)).set ↔ _
  rw [View.set_slice_whole, Rect.mem_set_unit]
  exact Iff.rfl

/-- Row n lies in block n / 5000: the 20 blocks cover the array. -/
theorem cover (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : (i 0).val / 5000 < cfg6.N := by rw [show cfg6.N = 20 from N_6]; omega
  obtain ⟨e0, e1, e2, e3, e4, e5, e6, e7⟩ := idx_facts ⟨(i 0).val / 5000, hN⟩
  refine ⟨⟨(i 0).val / 5000, hN⟩, flush6_3 _, ?_⟩
  rw [mem_blk]
  intro a
  match a with
  | ⟨0, _⟩ =>
    show win6_3.index ⟨(i 0).val / 5000, hN⟩ (0 : Fin 2) * 5000 ≤ (i 0).val ∧ (i 0).val < win6_3.index ⟨(i 0).val / 5000, hN⟩ (0 : Fin 2) * 5000 + 5000
    rw [e6]
    show (i 0).val / 5000 * 5000 ≤ (i 0).val ∧ (i 0).val < (i 0).val / 5000 * 5000 + 5000
    omega
  | ⟨1, _⟩ =>
    show win6_3.index ⟨(i 0).val / 5000, hN⟩ (1 : Fin 2) * 128 ≤ (i 1).val ∧ (i 1).val < win6_3.index ⟨(i 0).val / 5000, hN⟩ (1 : Fin 2) * 128 + 128
    omega

/-- The output array when the call returns. -/
theorem value (c : Dev nD) :
    (dat6 V c).arrAt 3 cfg6.N = dense (addf (F := Ideal) (s := Cert.ReferenceIdeal.S100000x128) (φ := .f32) (V c main_v60) (V c main_v76)) (V c main_arg8) :=
  (dat6 V c).arrAt_eq_of_cover 3 _ (fun t _ => flushed_eq V c t) cover

end Cert.KernelIdeal.Region6

end
-- ==== Proof.Region7.lean ====
/-
  pallas_call 7: what its output array holds when it returns.

  Its grid has 20 points; at point t the row windows hold rows 5000 t … 5000 t + 4999 of their arrays, the small operand's
  window the whole of its array, and the body's one store fills the output block. The 20 output blocks tile the 100000
  rows, so the output array ends as bias-relu of its row operand and the bias, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region7

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- Window 0's block at point t: rows t of its array. -/
theorem iblk_0 (c : Dev nD) (t : Fin cfg7.N) :
    iblk7 V c 0 t = rowsBlk (V c main_v90) ⟨t.val, lt_of_lt_of_eq t.isLt N_7⟩ := by
  obtain ⟨e0, e1, e2, e3, e4, e5⟩ := idx_facts t
  funext y
  show V c main_v90 (((cfg7.win 0).blk t).view.emb y) = V c main_v90 _
  refine congrArg (V c main_v90) (funext fun a => Fin.ext ?_)
  match a with
  | ⟨0, _⟩ => show win7_0.index t (0 : Fin 2) * 5000 + 1 * (y 0).val = 5000 * t.val + (y 0).val; omega
  | ⟨1, _⟩ => show win7_0.index t (1 : Fin 2) * 128 + 1 * (y 1).val = (y 1).val; omega

/-- Window 1's block at every point: the whole of its array. -/
theorem iblk_1 (c : Dev nD) (t : Fin cfg7.N) : iblk7 V c 1 t = V c main_v91 := by
  obtain ⟨e0, e1, e2, e3, e4, e5⟩ := idx_facts t
  funext y
  show V c main_v91 (((cfg7.win 1).blk t).view.emb y) = V c main_v91 y
  refine congrArg (V c main_v91) (funext fun a => Fin.ext ?_)
  match a with
  | ⟨0, _⟩ => show win7_1.index t (0 : Fin 2) * 1 + 1 * (y 0).val = (y 0).val; omega
  | ⟨1, _⟩ => show win7_1.index t (1 : Fin 2) * 128 + 1 * (y 1).val = (y 1).val; omega

/-- The output window's block at point t, read off any array: rows t of it. -/
theorem oblk (c : Dev nD) (G : Buf (Elt Ideal) ((c : Thread nD τ).loc main_v92)) (t : Fin cfg7.N) :
    ((cfg7.win 2).blk t).view.read (Elt Ideal) G = rowsBlk G ⟨t.val, lt_of_lt_of_eq t.isLt N_7⟩ := by
  obtain ⟨e0, e1, e2, e3, e4, e5⟩ := idx_facts t
  funext y
  show G (((cfg7.win 2).blk t).view.emb y) = G _
  refine congrArg G (funext fun a => Fin.ext ?_)
  match a with
  | ⟨0, _⟩ => show win7_2.index t (0 : Fin 2) * 5000 + 1 * (y 0).val = 5000 * t.val + (y 0).val; omega
  | ⟨1, _⟩ => show win7_2.index t (1 : Fin 2) * 128 + 1 * (y 1).val = (y 1).val; omega

/-- What point t writes back is rows t of the whole-array function. -/
theorem flushed_eq (c : Dev nD) (b : Ct Ideal Cert.ReferenceIdeal.S128 .f32) (hb : V c main_v91 = asRow b) (t : Fin cfg7.N) :
    (dat7 V c).flushed 2 t = ((cfg7.win 2).blk t).view.read (Elt Ideal) (biasRelu (V c main_v90) b) := by
  show (cfg7.win 2).cut (grid7.coords t) ((dat7 V c).after 2 t) = _
  rw [after7_2, oblk c, iblk_0, iblk_1, hb]
  unfold out7_2
  rw [View.canon_unit_zero hz]
  simp only [View.ld_unit_zero (S := S5000x128) hz, View.ld_unit_zero (S := S1x128) hz]
  exact Body.br7_rows _ _ _

/-- An index of the output array is in point t's block iff each coordinate is in the block's range on its axis. -/
theorem mem_blk (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v92).slice (win7_2.rect t)).set ↔ _
  rw [View.set_slice_whole, Rect.mem_set_unit]
  exact Iff.rfl

/-- Row n lies in block n / 5000: the 20 blocks cover the array. -/
theorem cover (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  have hN : (i 0).val / 5000 < cfg7.N := by rw [show cfg7.N = 20 from N_7]; omega
  obtain ⟨e0, e1, e2, e3, e4, e5⟩ := idx_facts ⟨(i 0).val / 5000, hN⟩
  refine ⟨⟨(i 0).val / 5000, hN⟩, flush7_2 _, ?_⟩
  rw [mem_blk]
  intro a
  match a with
  | ⟨0, _⟩ =>
    show win7_2.index ⟨(i 0).val / 5000, hN⟩ (0 : Fin 2) * 5000 ≤ (i 0).val ∧ (i 0).val < win7_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win7_2.index ⟨(i 0).val / 5000, hN⟩ (1 : Fin 2) * 128 ≤ (i 1).val ∧ (i 1).val < win7_2.index ⟨(i 0).val / 5000, hN⟩ (1 : Fin 2) * 128 + 128
    omega

/-- The output array when the call returns. -/
theorem value (c : Dev nD) (b : Ct Ideal Cert.ReferenceIdeal.S128 .f32) (hb : V c main_v91 = asRow b) :
    (dat7 V c).arrAt 2 cfg7.N = biasRelu (V c main_v90) b :=
  (dat7 V c).arrAt_eq_of_cover 2 _ (fun t _ => flushed_eq V c b hb t) cover

end Cert.KernelIdeal.Region7

end
-- ==== Proof.Region8.lean ====
/-
  pallas_call 8: what its output array holds when it returns.

  Its grid has 20 points; at point t the row windows hold rows 5000 t … 5000 t + 4999 of their arrays, the small operand's
  window the whole of its array, and the body's one store fills the output block. The 20 output blocks tile the 100000
  rows, so the output array ends as the dense transform of the sum of its two row operands, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region8

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Window 0's block at point t: rows t of its array. -/
theorem iblk_0 (c : Dev nD) (t : Fin cfg8.N) :
    iblk8 V c 0 t = rowsBlk (V c main_v92) ⟨t.val, lt_of_lt_of_eq t.isLt N_8⟩ := by
  obtain ⟨e0, e1, e2, e3, e4, e5, e6, e7⟩ := idx_facts t
  funext y
  show V c main_v92 (((cfg8.win 0).blk t).view.emb y) = V c main_v92 _
  refine congrArg (V c main_v92) (funext fun a => Fin.ext ?_)
  match a with
  | ⟨0, _⟩ => show win8_0.index t (0 : Fin 2) * 5000 + 1 * (y 0).val = 5000 * t.val + (y 0).val; omega
  | ⟨1, _⟩ => show win8_0.index t (1 : Fin 2) * 128 + 1 * (y 1).val = (y 1).val; omega

/-- Window 1's block at point t: rows t of its array. -/
theorem iblk_1 (c : Dev nD) (t : Fin cfg8.N) :
    iblk8 V c 1 t = rowsBlk (V c main_v76) ⟨t.val, lt_of_lt_of_eq t.isLt N_8⟩ := by
  obtain ⟨e0, e1, e2, e3, e4, e5, e6, e7⟩ := idx_facts t
  funext y
  show V c main_v76 (((cfg8.win 1).blk t).view.emb y) = V c main_v76 _
  refine congrArg (V c main_v76) (funext fun a => Fin.ext ?_)
  match a with
  | ⟨0, _⟩ => show win8_1.index t (0 : Fin 2) * 5000 + 1 * (y 0).val = 5000 * t.val + (y 0).val; omega
  | ⟨1, _⟩ => show win8_1.index t (1 : Fin 2) * 128 + 1 * (y 1).val = (y 1).val; omega

/-- Window 2's block at every point: the whole of its array. -/
theorem iblk_2 (c : Dev nD) (t : Fin cfg8.N) : iblk8 V c 2 t = V c main_arg8 := by
  obtain ⟨e0, e1, e2, e3, e4, e5, e6, e7⟩ := idx_facts t
  funext y
  show V c main_arg8 (((cfg8.win 2).blk t).view.emb y) = V c main_arg8 y
  refine congrArg (V c main_arg8) (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega

/-- The output window's block at point t, read off any array: rows t of it. -/
theorem oblk (c : Dev nD) (G : Buf (Elt Ideal) ((c : Thread nD τ).loc main_v93)) (t : Fin cfg8.N) :
    ((cfg8.win 3).blk t).view.read (Elt Ideal) G = rowsBlk G ⟨t.val, lt_of_lt_of_eq t.isLt N_8⟩ := by
  obtain ⟨e0, e1, e2, e3, e4, e5, e6, e7⟩ := idx_facts t
  funext y
  show G (((cfg8.win 3).blk t).view.emb y) = G _
  refine congrArg G (funext fun a => Fin.ext ?_)
  match a with
  | ⟨0, _⟩ => show win8_3.index t (0 : Fin 2) * 5000 + 1 * (y 0).val = 5000 * t.val + (y 0).val; omega
  | ⟨1, _⟩ => show win8_3.index t (1 : Fin 2) * 128 + 1 * (y 1).val = (y 1).val; omega

/-- What point t writes back is rows t of the whole-array function. -/
theorem flushed_eq (c : Dev nD) (t : Fin cfg8.N) :
    (dat8 V c).flushed 3 t = ((cfg8.win 3).blk t).view.read (Elt Ideal) (dense (addf (F := Ideal) (s := Cert.ReferenceIdeal.S100000x128) (φ := .f32) (V c main_v92) (V c main_v76)) (V c main_arg8)) := by
  show (cfg8.win 3).cut (grid8.coords t) ((dat8 V c).after 3 t) = _
  rw [after8_3, oblk c, iblk_0, iblk_1, iblk_2]
  unfold out8_3
  rw [View.canon_unit_zero hz]
  simp only [View.ld_unit_zero (S := S5000x128) hz, View.ld_unit_zero (S := S128x128) hz]
  exact Body.mmr8_rows _ _ _ _

/-- An index of the output array is in point t's block iff each coordinate is in the block's range on its axis. -/
theorem mem_blk (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v93).slice (win8_3.rect t)).set ↔ _
  rw [View.set_slice_whole, Rect.mem_set_unit]
  exact Iff.rfl

/-- Row n lies in block n / 5000: the 20 blocks cover the array. -/
theorem cover (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  have hN : (i 0).val / 5000 < cfg8.N := by rw [show cfg8.N = 20 from N_8]; omega
  obtain ⟨e0, e1, e2, e3, e4, e5, e6, e7⟩ := idx_facts ⟨(i 0).val / 5000, hN⟩
  refine ⟨⟨(i 0).val / 5000, hN⟩, flush8_3 _, ?_⟩
  rw [mem_blk]
  intro a
  match a with
  | ⟨0, _⟩ =>
    show win8_3.index ⟨(i 0).val / 5000, hN⟩ (0 : Fin 2) * 5000 ≤ (i 0).val ∧ (i 0).val < win8_3.index ⟨(i 0).val / 5000, hN⟩ (0 : Fin 2) * 5000 + 5000
    rw [e6]
    show (i 0).val / 5000 * 5000 ≤ (i 0).val ∧ (i 0).val < (i 0).val / 5000 * 5000 + 5000
    omega
  | ⟨1, _⟩ =>
    show win8_3.index ⟨(i 0).val / 5000, hN⟩ (1 : Fin 2) * 128 ≤ (i 1).val ∧ (i 1).val < win8_3.index ⟨(i 0).val / 5000, hN⟩ (1 : Fin 2) * 128 + 128
    omega

/-- The output array when the call returns. -/
theorem value (c : Dev nD) :
    (dat8 V c).arrAt 3 cfg8.N = dense (addf (F := Ideal) (s := Cert.ReferenceIdeal.S100000x128) (φ := .f32) (V c main_v92) (V c main_v76)) (V c main_arg8) :=
  (dat8 V c).arrAt_eq_of_cover 3 _ (fun t _ => flushed_eq V c t) cover

end Cert.KernelIdeal.Region8

end
-- ==== Proof.Region9.lean ====
/-
  pallas_call 9: what its output array holds when it returns.

  Its grid has 20 points; at point t the row windows hold rows 5000 t … 5000 t + 4999 of their arrays, the small operand's
  window the whole of its array, and the body's one store fills the output block. The 20 output blocks tile the 100000
  rows, so the output array ends as bias-relu of its row operand and the bias, read at the contents the call was entered with.
-/
import proofs.«128388_j11321533792498_1_alg».proof.Proof.Gen.KernelIdeal.Frame
import proofs.«128388_j11321533792498_1_alg».proof.Proof.BodyValue
import Idealize.ShloMosaic.Lib.Pipeline.Value

set_option maxRecDepth 16384

noncomputable section

namespace Cert.KernelIdeal.Region9

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is (t, 0), a small operand's is (0, 0). -/
theorem idx_facts : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

/-- Window 0's block at point t: rows t of its array. -/
theorem iblk_0 (c : Dev nD) (t : Fin cfg9.N) :
    iblk9 V c 0 t = rowsBlk (V c main_v106) ⟨t.val, lt_of_lt_of_eq t.isLt N_9⟩ := by
  obtain ⟨e0, e1, e2, e3, e4, e5⟩ := idx_facts t
  funext y
  show V c main_v106 (((cfg9.win 0).blk t).view.emb y) = V c main_v106 _
  refine congrArg (V c main_v106) (funext fun a => Fin.ext ?_)
  match a with
  | ⟨0, _⟩ => show win9_0.index t (0 : Fin 2) * 5000 + 1 * (y 0).val = 5000 * t.val + (y 0).val; omega
  | ⟨1, _⟩ => show win9_0.index t (1 : Fin 2) * 128 + 1 * (y 1).val = (y 1).val; omega

/-- Window 1's block at every point: the whole of its array. -/
theorem iblk_1 (c : Dev nD) (t : Fin cfg9.N) : iblk9 V c 1 t = V c main_v107 := by
  obtain ⟨e0, e1, e2, e3, e4, e5⟩ := idx_facts t
  funext y
  show V c main_v107 (((cfg9.win 1).blk t).view.emb y) = V c main_v107 y
  refine congrArg (V c main_v107) (funext fun a => Fin.ext ?_)
  match a with
  | ⟨0, _⟩ => show win9_1.index t (0 : Fin 2) * 1 + 1 * (y 0).val = (y 0).val; omega
  | ⟨1, _⟩ => show win9_1.index t (1 : Fin 2) * 128 + 1 * (y 1).val = (y 1).val; omega

/-- The output window's block at point t, read off any array: rows t of it. -/
theorem oblk (c : Dev nD) (G : Buf (Elt Ideal) ((c : Thread nD τ).loc main_v108)) (t : Fin cfg9.N) :
    ((cfg9.win 2).blk t).view.read (Elt Ideal) G = rowsBlk G ⟨t.val, lt_of_lt_of_eq t.isLt N_9⟩ := by
  obtain ⟨e0, e1, e2, e3, e4, e5⟩ := idx_facts t
  funext y
  show G (((cfg9.win 2).blk t).view.emb y) = G _
  refine congrArg G (funext fun a => Fin.ext ?_)
  match a with
  | ⟨0, _⟩ => show win9_2.index t (0 : Fin 2) * 5000 + 1 * (y 0).val = 5000 * t.val + (y 0).val; omega
  | ⟨1, _⟩ => show win9_2.index t (1 : Fin 2) * 128 + 1 * (y 1).val = (y 1).val; omega

/-- What point t writes back is rows t of the whole-array function. -/
theorem flushed_eq (c : Dev nD) (b : Ct Ideal Cert.ReferenceIdeal.S128 .f32) (hb : V c main_v107 = asRow b) (t : Fin cfg9.N) :
    (dat9 V c).flushed 2 t = ((cfg9.win 2).blk t).view.read (Elt Ideal) (biasRelu (V c main_v106) b) := by
  show (cfg9.win 2).cut (grid9.coords t) ((dat9 V c).after 2 t) = _
  rw [after9_2, oblk c, iblk_0, iblk_1, hb]
  unfold out9_2
  rw [View.canon_unit_zero hz]
  simp only [View.ld_unit_zero (S := S5000x128) hz, View.ld_unit_zero (S := S1x128) hz]
  exact Body.br9_rows _ _ _

/-- An index of the output array is in point t's block iff each coordinate is in the block's range on its axis. -/
theorem mem_blk (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v108).slice (win9_2.rect t)).set ↔ _
  rw [View.set_slice_whole, Rect.mem_set_unit]
  exact Iff.rfl

/-- Row n lies in block n / 5000: the 20 blocks cover the array. -/
theorem cover (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  have hN : (i 0).val / 5000 < cfg9.N := by rw [show cfg9.N = 20 from N_9]; omega
  obtain ⟨e0, e1, e2, e3, e4, e5⟩ := idx_facts ⟨(i 0).val / 5000, hN⟩
  refine ⟨⟨(i 0).val / 5000, hN⟩, flush9_2 _, ?_⟩
  rw [mem_blk]
  intro a
  match a with
  | ⟨0, _⟩ =>
    show win9_2.index ⟨(i 0).val / 5000, hN⟩ (0 : Fin 2) * 5000 ≤ (i 0).val ∧ (i 0).val < win9_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win9_2.index ⟨(i 0).val / 5000, hN⟩ (1 : Fin 2) * 128 ≤ (i 1).val ∧ (i 1).val < win9_2.index ⟨(i 0).val / 5000, hN⟩ (1 : Fin 2) * 128 + 128
    omega

/-- The output array when the call returns. -/
theorem value (c : Dev nD) (b : Ct Ideal Cert.ReferenceIdeal.S128 .f32) (hb : V c main_v107 = asRow b) :
    (dat9 V c).arrAt 2 cfg9.N = biasRelu (V c main_v106) b :=
  (dat9 V c).arrAt_eq_of_cover 2 _ (fun t _ => flushed_eq V c b hb t) cover

end Cert.KernelIdeal.Region9

end
-- ==== Proof.StepsGraph.lean ====
/-
  The edge list's endpoints and weights, computed once before the first pallas_call, are what every later stretch reads.

  A stretch of host operations changes only the buffers its operations write; a pallas_call changes only its output
  array (an input array is staged and never written back). So a buffer none of them writes holds at a later boundary what
  it held at an earlier one: one equation per segment crossed, chained.
-/
import proofs.«128388_j11321533792498_1_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem step2_v3 (c : Dev nD) : W2 m ρ c (Proc.devRef .tc main_v3) = W1 m ρ c (Proc.devRef .tc main_v3) :=
  W2_of_ne m ρ c main_v3 (by decide)
theorem at2_v3 (c : Dev nD) : W2 m ρ c (Proc.devRef .tc main_v3) = W1 m ρ c (Proc.devRef .tc main_v3) := step2_v3 m ρ c
theorem step3_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_v3 (c : Dev nD) : W3 m ρ c (Proc.devRef .tc main_v3) = W1 m ρ c (Proc.devRef .tc main_v3) := (step3_v3 m ρ c).trans (at2_v3 m ρ c)
theorem step4_v3 (c : Dev nD) : W4 m ρ c (Proc.devRef .tc main_v3) = W3 m ρ c (Proc.devRef .tc main_v3) :=
  W4_of_ne m ρ c main_v3 (by decide)
theorem at4_v3 (c : Dev nD) : W4 m ρ c (Proc.devRef .tc main_v3) = W1 m ρ c (Proc.devRef .tc main_v3) := (step4_v3 m ρ c).trans (at3_v3 m ρ c)
theorem step5_v3 (c : Dev nD) : W5 m ρ c (Proc.devRef .tc main_v3) = W4 m ρ c (Proc.devRef .tc main_v3) :=
  W5_of_ne m ρ c main_v3 (by decide)
theorem at5_v3 (c : Dev nD) : W5 m ρ c (Proc.devRef .tc main_v3) = W1 m ρ c (Proc.devRef .tc main_v3) := (step5_v3 m ρ c).trans (at4_v3 m ρ c)
theorem step6_v3 (c : Dev nD) : W6 m ρ c (Proc.devRef .tc main_v3) = W5 m ρ c (Proc.devRef .tc main_v3) :=
  StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_v3 (c : Dev nD) : W6 m ρ c (Proc.devRef .tc main_v3) = W1 m ρ c (Proc.devRef .tc main_v3) := (step6_v3 m ρ c).trans (at5_v3 m ρ c)
theorem step7_v3 (c : Dev nD) : W7 m ρ c (Proc.devRef .tc main_v3) = W6 m ρ c (Proc.devRef .tc main_v3) :=
  W7_of_ne m ρ c main_v3 (by decide)
theorem at7_v3 (c : Dev nD) : W7 m ρ c (Proc.devRef .tc main_v3) = W1 m ρ c (Proc.devRef .tc main_v3) := (step7_v3 m ρ c).trans (at6_v3 m ρ c)
theorem step8_v3 (c : Dev nD) : W8 m ρ c (Proc.devRef .tc main_v3) = W7 m ρ c (Proc.devRef .tc main_v3) :=
  W8_of_ne m ρ c main_v3 (by decide)
theorem at8_v3 (c : Dev nD) : W8 m ρ c (Proc.devRef .tc main_v3) = W1 m ρ c (Proc.devRef .tc main_v3) := (step8_v3 m ρ c).trans (at7_v3 m ρ c)
theorem step9_v3 (c : Dev nD) : W9 m ρ c (Proc.devRef .tc main_v3) = W8 m ρ c (Proc.devRef .tc main_v3) :=
  StableHlo.after_of_forall_not_mem (b := Proc.devRef .tc main_v3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_v3 (c : Dev nD) : W9 m ρ c (Proc.devRef .tc main_v3) = W1 m ρ c (Proc.devRef .tc main_v3) := (step9_v3 m ρ c).trans (at8_v3 m ρ c)
theorem step10_v3 (c : Dev nD) : W10 m ρ c (Proc.devRef .tc main_v3) = W9 m ρ c (Proc.devRef .tc main_v3) :=
  W10_of_ne m ρ c main_v3 (by decide)
theorem at10_v3 (c : Dev nD) : W10 m ρ c (Proc.devRef .tc main_v3) = W1 m ρ c (Proc.devRef .tc main_v3) := (step10_v3 m ρ c).trans (at9_v3 m ρ c)
theorem step11_v3 (c : Dev nD) : W11 m ρ c (Proc.devRef .tc main_v3) = W10 m ρ c (Proc.devRef .tc main_v3) :=
  W11_of_ne m ρ c main_v3 (by decide)
theorem at11_v3 (c : Dev nD) : W11 m ρ c (Proc.devRef .tc main_v3) = W1 m ρ c (Proc.devRef .tc main_v3) := (step11_v3 m ρ c).trans (at10_v3 m ρ c)
theorem step12_v3 (c : Dev nD) : W12 m ρ c (Proc.devRef .tc main_v3) = W11 m ρ c (Proc.devRef .tc main_v3) :=
  StableHlo.after_of_forall_not_mem (b := Proc.devRef .tc main_v3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_v3 (c : Dev nD) : W12 m ρ c (Proc.devRef .tc main_v3) = W1 m ρ c (Proc.devRef .tc main_v3) := (step12_v3 m ρ c).trans (at11_v3 m ρ c)
theorem step13_v3 (c : Dev nD) : W13 m ρ c (Proc.devRef .tc main_v3) = W12 m ρ c (Proc.devRef .tc main_v3) :=
  W13_of_ne m ρ c main_v3 (by decide)
theorem at13_v3 (c : Dev nD) : W13 m ρ c (Proc.devRef .tc main_v3) = W1 m ρ c (Proc.devRef .tc main_v3) := (step13_v3 m ρ c).trans (at12_v3 m ρ c)
theorem step14_v3 (c : Dev nD) : W14 m ρ c (Proc.devRef .tc main_v3) = W13 m ρ c (Proc.devRef .tc main_v3) :=
  W14_of_ne m ρ c main_v3 (by decide)
theorem at14_v3 (c : Dev nD) : W14 m ρ c (Proc.devRef .tc main_v3) = W1 m ρ c (Proc.devRef .tc main_v3) := (step14_v3 m ρ c).trans (at13_v3 m ρ c)

theorem step2_v6 (c : Dev nD) : W2 m ρ c (Proc.devRef .tc main_v6) = W1 m ρ c (Proc.devRef .tc main_v6) :=
  W2_of_ne m ρ c main_v6 (by decide)
theorem at2_v6 (c : Dev nD) : W2 m ρ c (Proc.devRef .tc main_v6) = W1 m ρ c (Proc.devRef .tc main_v6) := step2_v6 m ρ c
theorem step3_v6 (c : Dev nD) : W3 m ρ c (Proc.devRef .tc main_v6) = W2 m ρ c (Proc.devRef .tc main_v6) :=
  StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_v6 (c : Dev nD) : W3 m ρ c (Proc.devRef .tc main_v6) = W1 m ρ c (Proc.devRef .tc main_v6) := (step3_v6 m ρ c).trans (at2_v6 m ρ c)
theorem step4_v6 (c : Dev nD) : W4 m ρ c (Proc.devRef .tc main_v6) = W3 m ρ c (Proc.devRef .tc main_v6) :=
  W4_of_ne m ρ c main_v6 (by decide)
theorem at4_v6 (c : Dev nD) : W4 m ρ c (Proc.devRef .tc main_v6) = W1 m ρ c (Proc.devRef .tc main_v6) := (step4_v6 m ρ c).trans (at3_v6 m ρ c)
theorem step5_v6 (c : Dev nD) : W5 m ρ c (Proc.devRef .tc main_v6) = W4 m ρ c (Proc.devRef .tc main_v6) :=
  W5_of_ne m ρ c main_v6 (by decide)
theorem at5_v6 (c : Dev nD) : W5 m ρ c (Proc.devRef .tc main_v6) = W1 m ρ c (Proc.devRef .tc main_v6) := (step5_v6 m ρ c).trans (at4_v6 m ρ c)
theorem step6_v6 (c : Dev nD) : W6 m ρ c (Proc.devRef .tc main_v6) = W5 m ρ c (Proc.devRef .tc main_v6) :=
  StableHlo.after_of_forall_not_mem (b := Proc.devRef .tc main_v6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_v6 (c : Dev nD) : W6 m ρ c (Proc.devRef .tc main_v6) = W1 m ρ c (Proc.devRef .tc main_v6) := (step6_v6 m ρ c).trans (at5_v6 m ρ c)
theorem step7_v6 (c : Dev nD) : W7 m ρ c (Proc.devRef .tc main_v6) = W6 m ρ c (Proc.devRef .tc main_v6) :=
  W7_of_ne m ρ c main_v6 (by decide)
theorem at7_v6 (c : Dev nD) : W7 m ρ c (Proc.devRef .tc main_v6) = W1 m ρ c (Proc.devRef .tc main_v6) := (step7_v6 m ρ c).trans (at6_v6 m ρ c)
theorem step8_v6 (c : Dev nD) : W8 m ρ c (Proc.devRef .tc main_v6) = W7 m ρ c (Proc.devRef .tc main_v6) :=
  W8_of_ne m ρ c main_v6 (by decide)
theorem at8_v6 (c : Dev nD) : W8 m ρ c (Proc.devRef .tc main_v6) = W1 m ρ c (Proc.devRef .tc main_v6) := (step8_v6 m ρ c).trans (at7_v6 m ρ c)
theorem step9_v6 (c : Dev nD) : W9 m ρ c (Proc.devRef .tc main_v6) = W8 m ρ c (Proc.devRef .tc main_v6) :=
  StableHlo.after_of_forall_not_mem (b := Proc.devRef .tc main_v6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_v6 (c : Dev nD) : W9 m ρ c (Proc.devRef .tc main_v6) = W1 m ρ c (Proc.devRef .tc main_v6) := (step9_v6 m ρ c).trans (at8_v6 m ρ c)
theorem step10_v6 (c : Dev nD) : W10 m ρ c (Proc.devRef .tc main_v6) = W9 m ρ c (Proc.devRef .tc main_v6) :=
  W10_of_ne m ρ c main_v6 (by decide)
theorem at10_v6 (c : Dev nD) : W10 m ρ c (Proc.devRef .tc main_v6) = W1 m ρ c (Proc.devRef .tc main_v6) := (step10_v6 m ρ c).trans (at9_v6 m ρ c)
theorem step11_v6 (c : Dev nD) : W11 m ρ c (Proc.devRef .tc main_v6) = W10 m ρ c (Proc.devRef .tc main_v6) :=
  W11_of_ne m ρ c main_v6 (by decide)
theorem at11_v6 (c : Dev nD) : W11 m ρ c (Proc.devRef .tc main_v6) = W1 m ρ c (Proc.devRef .tc main_v6) := (step11_v6 m ρ c).trans (at10_v6 m ρ c)
theorem step12_v6 (c : Dev nD) : W12 m ρ c (Proc.devRef .tc main_v6) = W11 m ρ c (Proc.devRef .tc main_v6) :=
  StableHlo.after_of_forall_not_mem (b := Proc.devRef .tc main_v6) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_v6 (c : Dev nD) : W12 m ρ c (Proc.devRef .tc main_v6) = W1 m ρ c (Proc.devRef .tc main_v6) := (step12_v6 m ρ c).trans (at11_v6 m ρ c)
theorem step13_v6 (c : Dev nD) : W13 m ρ c (Proc.devRef .tc main_v6) = W12 m ρ c (Proc.devRef .tc main_v6) :=
  W13_of_ne m ρ c main_v6 (by decide)
theorem at13_v6 (c : Dev nD) : W13 m ρ c (Proc.devRef .tc main_v6) = W1 m ρ c (Proc.devRef .tc main_v6) := (step13_v6 m ρ c).trans (at12_v6 m ρ c)
theorem step14_v6 (c : Dev nD) : W14 m ρ c (Proc.devRef .tc main_v6) = W13 m ρ c (Proc.devRef .tc main_v6) :=
  W14_of_ne m ρ c main_v6 (by decide)
theorem at14_v6 (c : Dev nD) : W14 m ρ c (Proc.devRef .tc main_v6) = W1 m ρ c (Proc.devRef .tc main_v6) := (step14_v6 m ρ c).trans (at13_v6 m ρ c)

theorem step2_v28 (c : Dev nD) : W2 m ρ c (Proc.devRef .tc main_v28) = W1 m ρ c (Proc.devRef .tc main_v28) :=
  W2_of_ne m ρ c main_v28 (by decide)
theorem at2_v28 (c : Dev nD) : W2 m ρ c (Proc.devRef .tc main_v28) = W1 m ρ c (Proc.devRef .tc main_v28) := step2_v28 m ρ c
theorem step3_v28 (c : Dev nD) : W3 m ρ c (Proc.devRef .tc main_v28) = W2 m ρ c (Proc.devRef .tc main_v28) :=
  StableHlo.after_of_forall_not_mem (b := Proc.devRef .tc main_v28) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_v28 (c : Dev nD) : W3 m ρ c (Proc.devRef .tc main_v28) = W1 m ρ c (Proc.devRef .tc main_v28) := (step3_v28 m ρ c).trans (at2_v28 m ρ c)
theorem step4_v28 (c : Dev nD) : W4 m ρ c (Proc.devRef .tc main_v28) = W3 m ρ c (Proc.devRef .tc main_v28) :=
  W4_of_ne m ρ c main_v28 (by decide)
theorem at4_v28 (c : Dev nD) : W4 m ρ c (Proc.devRef .tc main_v28) = W1 m ρ c (Proc.devRef .tc main_v28) := (step4_v28 m ρ c).trans (at3_v28 m ρ c)
theorem step5_v28 (c : Dev nD) : W5 m ρ c (Proc.devRef .tc main_v28) = W4 m ρ c (Proc.devRef .tc main_v28) :=
  W5_of_ne m ρ c main_v28 (by decide)
theorem at5_v28 (c : Dev nD) : W5 m ρ c (Proc.devRef .tc main_v28) = W1 m ρ c (Proc.devRef .tc main_v28) := (step5_v28 m ρ c).trans (at4_v28 m ρ c)
theorem step6_v28 (c : Dev nD) : W6 m ρ c (Proc.devRef .tc main_v28) = W5 m ρ c (Proc.devRef .tc main_v28) :=
  StableHlo.after_of_forall_not_mem (b := Proc.devRef .tc main_v28) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_v28 (c : Dev nD) : W6 m ρ c (Proc.devRef .tc main_v28) = W1 m ρ c (Proc.devRef .tc main_v28) := (step6_v28 m ρ c).trans (at5_v28 m ρ c)
theorem step7_v28 (c : Dev nD) : W7 m ρ c (Proc.devRef .tc main_v28) = W6 m ρ c (Proc.devRef .tc main_v28) :=
  W7_of_ne m ρ c main_v28 (by decide)
theorem at7_v28 (c : Dev nD) : W7 m ρ c (Proc.devRef .tc main_v28) = W1 m ρ c (Proc.devRef .tc main_v28) := (step7_v28 m ρ c).trans (at6_v28 m ρ c)
theorem step8_v28 (c : Dev nD) : W8 m ρ c (Proc.devRef .tc main_v28) = W7 m ρ c (Proc.devRef .tc main_v28) :=
  W8_of_ne m ρ c main_v28 (by decide)
theorem at8_v28 (c : Dev nD) : W8 m ρ c (Proc.devRef .tc main_v28) = W1 m ρ c (Proc.devRef .tc main_v28) := (step8_v28 m ρ c).trans (at7_v28 m ρ c)
theorem step9_v28 (c : Dev nD) : W9 m ρ c (Proc.devRef .tc main_v28) = W8 m ρ c (Proc.devRef .tc main_v28) :=
  StableHlo.after_of_forall_not_mem (b := Proc.devRef .tc main_v28) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_v28 (c : Dev nD) : W9 m ρ c (Proc.devRef .tc main_v28) = W1 m ρ c (Proc.devRef .tc main_v28) := (step9_v28 m ρ c).trans (at8_v28 m ρ c)
theorem step10_v28 (c : Dev nD) : W10 m ρ c (Proc.devRef .tc main_v28) = W9 m ρ c (Proc.devRef .tc main_v28) :=
  W10_of_ne m ρ c main_v28 (by decide)
theorem at10_v28 (c : Dev nD) : W10 m ρ c (Proc.devRef .tc main_v28) = W1 m ρ c (Proc.devRef .tc main_v28) := (step10_v28 m ρ c).trans (at9_v28 m ρ c)
theorem step11_v28 (c : Dev nD) : W11 m ρ c (Proc.devRef .tc main_v28) = W10 m ρ c (Proc.devRef .tc main_v28) :=
  W11_of_ne m ρ c main_v28 (by decide)
theorem at11_v28 (c : Dev nD) : W11 m ρ c (Proc.devRef .tc main_v28) = W1 m ρ c (Proc.devRef .tc main_v28) := (step11_v28 m ρ c).trans (at10_v28 m ρ c)
theorem step12_v28 (c : Dev nD) : W12 m ρ c (Proc.devRef .tc main_v28) = W11 m ρ c (Proc.devRef .tc main_v28) :=
  StableHlo.after_of_forall_not_mem (b := Proc.devRef .tc main_v28) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_v28 (c : Dev nD) : W12 m ρ c (Proc.devRef .tc main_v28) = W1 m ρ c (Proc.devRef .tc main_v28) := (step12_v28 m ρ c).trans (at11_v28 m ρ c)
theorem step13_v28 (c : Dev nD) : W13 m ρ c (Proc.devRef .tc main_v28) = W12 m ρ c (Proc.devRef .tc main_v28) :=
  W13_of_ne m ρ c main_v28 (by decide)
theorem at13_v28 (c : Dev nD) : W13 m ρ c (Proc.devRef .tc main_v28) = W1 m ρ c (Proc.devRef .tc main_v28) := (step13_v28 m ρ c).trans (at12_v28 m ρ c)
theorem step14_v28 (c : Dev nD) : W14 m ρ c (Proc.devRef .tc main_v28) = W13 m ρ c (Proc.devRef .tc main_v28) :=
  W14_of_ne m ρ c main_v28 (by decide)
theorem at14_v28 (c : Dev nD) : W14 m ρ c (Proc.devRef .tc main_v28) = W1 m ρ c (Proc.devRef .tc main_v28) := (step14_v28 m ρ c).trans (at13_v28 m ρ c)

end Cert.KernelIdeal.Steps

end
-- ==== Proof.StepsArgs.lean ====
/-
  The weight and bias arguments hold their launch contents at the boundary where each is read.

  A stretch of host operations changes only the buffers its operations write; a pallas_call changes only its output
  array (an input array is staged and never written back). So a buffer none of them writes holds at a later boundary what
  it held at an earlier one: one equation per segment crossed, chained.
-/
import proofs.«128388_j11321533792498_1_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem step1_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg0 (c : Dev nD) : W1 m ρ c (Proc.devRef .tc main_arg0) = W0 m ρ c (Proc.devRef .tc main_arg0) := step1_arg0 m ρ c

theorem step1_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg2 (c : Dev nD) : W1 m ρ c (Proc.devRef .tc main_arg2) = W0 m ρ c (Proc.devRef .tc main_arg2) := step1_arg2 m ρ c

theorem step1_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg3 (c : Dev nD) : W1 m ρ c (Proc.devRef .tc main_arg3) = W0 m ρ c (Proc.devRef .tc main_arg3) := step1_arg3 m ρ c
theorem step2_arg3 (c : Dev nD) : W2 m ρ c (Proc.devRef .tc main_arg3) = W1 m ρ c (Proc.devRef .tc main_arg3) :=
  W2_of_ne m ρ c main_arg3 (by decide)
theorem at2_arg3 (c : Dev nD) : W2 m ρ c (Proc.devRef .tc main_arg3) = W0 m ρ c (Proc.devRef .tc main_arg3) := (step2_arg3 m ρ c).trans (at1_arg3 m ρ c)

theorem step1_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg4 (c : Dev nD) : W1 m ρ c (Proc.devRef .tc main_arg4) = W0 m ρ c (Proc.devRef .tc main_arg4) := step1_arg4 m ρ c
theorem step2_arg4 (c : Dev nD) : W2 m ρ c (Proc.devRef .tc main_arg4) = W1 m ρ c (Proc.devRef .tc main_arg4) :=
  W2_of_ne m ρ c main_arg4 (by decide)
theorem at2_arg4 (c : Dev nD) : W2 m ρ c (Proc.devRef .tc main_arg4) = W0 m ρ c (Proc.devRef .tc main_arg4) := (step2_arg4 m ρ c).trans (at1_arg4 m ρ c)
theorem step3_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg4 (c : Dev nD) : W3 m ρ c (Proc.devRef .tc main_arg4) = W0 m ρ c (Proc.devRef .tc main_arg4) := (step3_arg4 m ρ c).trans (at2_arg4 m ρ c)
theorem step4_arg4 (c : Dev nD) : W4 m ρ c (Proc.devRef .tc main_arg4) = W3 m ρ c (Proc.devRef .tc main_arg4) :=
  W4_of_ne m ρ c main_arg4 (by decide)
theorem at4_arg4 (c : Dev nD) : W4 m ρ c (Proc.devRef .tc main_arg4) = W0 m ρ c (Proc.devRef .tc main_arg4) := (step4_arg4 m ρ c).trans (at3_arg4 m ρ c)

theorem step1_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg5 (c : Dev nD) : W1 m ρ c (Proc.devRef .tc main_arg5) = W0 m ρ c (Proc.devRef .tc main_arg5) := step1_arg5 m ρ c
theorem step2_arg5 (c : Dev nD) : W2 m ρ c (Proc.devRef .tc main_arg5) = W1 m ρ c (Proc.devRef .tc main_arg5) :=
  W2_of_ne m ρ c main_arg5 (by decide)
theorem at2_arg5 (c : Dev nD) : W2 m ρ c (Proc.devRef .tc main_arg5) = W0 m ρ c (Proc.devRef .tc main_arg5) := (step2_arg5 m ρ c).trans (at1_arg5 m ρ c)
theorem step3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg5 (c : Dev nD) : W3 m ρ c (Proc.devRef .tc main_arg5) = W0 m ρ c (Proc.devRef .tc main_arg5) := (step3_arg5 m ρ c).trans (at2_arg5 m ρ c)
theorem step4_arg5 (c : Dev nD) : W4 m ρ c (Proc.devRef .tc main_arg5) = W3 m ρ c (Proc.devRef .tc main_arg5) :=
  W4_of_ne m ρ c main_arg5 (by decide)
theorem at4_arg5 (c : Dev nD) : W4 m ρ c (Proc.devRef .tc main_arg5) = W0 m ρ c (Proc.devRef .tc main_arg5) := (step4_arg5 m ρ c).trans (at3_arg5 m ρ c)
theorem step5_arg5 (c : Dev nD) : W5 m ρ c (Proc.devRef .tc main_arg5) = W4 m ρ c (Proc.devRef .tc main_arg5) :=
  W5_of_ne m ρ c main_arg5 (by decide)
theorem at5_arg5 (c : Dev nD) : W5 m ρ c (Proc.devRef .tc main_arg5) = W0 m ρ c (Proc.devRef .tc main_arg5) := (step5_arg5 m ρ c).trans (at4_arg5 m ρ c)

theorem step1_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg6 (c : Dev nD) : W1 m ρ c (Proc.devRef .tc main_arg6) = W0 m ρ c (Proc.devRef .tc main_arg6) := step1_arg6 m ρ c
theorem step2_arg6 (c : Dev nD) : W2 m ρ c (Proc.devRef .tc main_arg6) = W1 m ρ c (Proc.devRef .tc main_arg6) :=
  W2_of_ne m ρ c main_arg6 (by decide)
theorem at2_arg6 (c : Dev nD) : W2 m ρ c (Proc.devRef .tc main_arg6) = W0 m ρ c (Proc.devRef .tc main_arg6) := (step2_arg6 m ρ c).trans (at1_arg6 m ρ c)
theorem step3_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg6 (c : Dev nD) : W3 m ρ c (Proc.devRef .tc main_arg6) = W0 m ρ c (Proc.devRef .tc main_arg6) := (step3_arg6 m ρ c).trans (at2_arg6 m ρ c)
theorem step4_arg6 (c : Dev nD) : W4 m ρ c (Proc.devRef .tc main_arg6) = W3 m ρ c (Proc.devRef .tc main_arg6) :=
  W4_of_ne m ρ c main_arg6 (by decide)
theorem at4_arg6 (c : Dev nD) : W4 m ρ c (Proc.devRef .tc main_arg6) = W0 m ρ c (Proc.devRef .tc main_arg6) := (step4_arg6 m ρ c).trans (at3_arg6 m ρ c)
theorem step5_arg6 (c : Dev nD) : W5 m ρ c (Proc.devRef .tc main_arg6) = W4 m ρ c (Proc.devRef .tc main_arg6) :=
  W5_of_ne m ρ c main_arg6 (by decide)
theorem at5_arg6 (c : Dev nD) : W5 m ρ c (Proc.devRef .tc main_arg6) = W0 m ρ c (Proc.devRef .tc main_arg6) := (step5_arg6 m ρ c).trans (at4_arg6 m ρ c)
theorem step6_arg6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_arg6 (c : Dev nD) : W6 m ρ c (Proc.devRef .tc main_arg6) = W0 m ρ c (Proc.devRef .tc main_arg6) := (step6_arg6 m ρ c).trans (at5_arg6 m ρ c)
theorem step7_arg6 (c : Dev nD) : W7 m ρ c (Proc.devRef .tc main_arg6) = W6 m ρ c (Proc.devRef .tc main_arg6) :=
  W7_of_ne m ρ c main_arg6 (by decide)
theorem at7_arg6 (c : Dev nD) : W7 m ρ c (Proc.devRef .tc main_arg6) = W0 m ρ c (Proc.devRef .tc main_arg6) := (step7_arg6 m ρ c).trans (at6_arg6 m ρ c)

theorem step1_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg7 (c : Dev nD) : W1 m ρ c (Proc.devRef .tc main_arg7) = W0 m ρ c (Proc.devRef .tc main_arg7) := step1_arg7 m ρ c
theorem step2_arg7 (c : Dev nD) : W2 m ρ c (Proc.devRef .tc main_arg7) = W1 m ρ c (Proc.devRef .tc main_arg7) :=
  W2_of_ne m ρ c main_arg7 (by decide)
theorem at2_arg7 (c : Dev nD) : W2 m ρ c (Proc.devRef .tc main_arg7) = W0 m ρ c (Proc.devRef .tc main_arg7) := (step2_arg7 m ρ c).trans (at1_arg7 m ρ c)
theorem step3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg7 (c : Dev nD) : W3 m ρ c (Proc.devRef .tc main_arg7) = W0 m ρ c (Proc.devRef .tc main_arg7) := (step3_arg7 m ρ c).trans (at2_arg7 m ρ c)
theorem step4_arg7 (c : Dev nD) : W4 m ρ c (Proc.devRef .tc main_arg7) = W3 m ρ c (Proc.devRef .tc main_arg7) :=
  W4_of_ne m ρ c main_arg7 (by decide)
theorem at4_arg7 (c : Dev nD) : W4 m ρ c (Proc.devRef .tc main_arg7) = W0 m ρ c (Proc.devRef .tc main_arg7) := (step4_arg7 m ρ c).trans (at3_arg7 m ρ c)
theorem step5_arg7 (c : Dev nD) : W5 m ρ c (Proc.devRef .tc main_arg7) = W4 m ρ c (Proc.devRef .tc main_arg7) :=
  W5_of_ne m ρ c main_arg7 (by decide)
theorem at5_arg7 (c : Dev nD) : W5 m ρ c (Proc.devRef .tc main_arg7) = W0 m ρ c (Proc.devRef .tc main_arg7) := (step5_arg7 m ρ c).trans (at4_arg7 m ρ c)
theorem step6_arg7 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_arg7 (c : Dev nD) : W6 m ρ c (Proc.devRef .tc main_arg7) = W0 m ρ c (Proc.devRef .tc main_arg7) := (step6_arg7 m ρ c).trans (at5_arg7 m ρ c)
theorem step7_arg7 (c : Dev nD) : W7 m ρ c (Proc.devRef .tc main_arg7) = W6 m ρ c (Proc.devRef .tc main_arg7) :=
  W7_of_ne m ρ c main_arg7 (by decide)
theorem at7_arg7 (c : Dev nD) : W7 m ρ c (Proc.devRef .tc main_arg7) = W0 m ρ c (Proc.devRef .tc main_arg7) := (step7_arg7 m ρ c).trans (at6_arg7 m ρ c)
theorem step8_arg7 (c : Dev nD) : W8 m ρ c (Proc.devRef .tc main_arg7) = W7 m ρ c (Proc.devRef .tc main_arg7) :=
  W8_of_ne m ρ c main_arg7 (by decide)
theorem at8_arg7 (c : Dev nD) : W8 m ρ c (Proc.devRef .tc main_arg7) = W0 m ρ c (Proc.devRef .tc main_arg7) := (step8_arg7 m ρ c).trans (at7_arg7 m ρ c)

theorem step1_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg8 (c : Dev nD) : W1 m ρ c (Proc.devRef .tc main_arg8) = W0 m ρ c (Proc.devRef .tc main_arg8) := step1_arg8 m ρ c
theorem step2_arg8 (c : Dev nD) : W2 m ρ c (Proc.devRef .tc main_arg8) = W1 m ρ c (Proc.devRef .tc main_arg8) :=
  W2_of_ne m ρ c main_arg8 (by decide)
theorem at2_arg8 (c : Dev nD) : W2 m ρ c (Proc.devRef .tc main_arg8) = W0 m ρ c (Proc.devRef .tc main_arg8) := (step2_arg8 m ρ c).trans (at1_arg8 m ρ c)
theorem step3_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg8 (c : Dev nD) : W3 m ρ c (Proc.devRef .tc main_arg8) = W0 m ρ c (Proc.devRef .tc main_arg8) := (step3_arg8 m ρ c).trans (at2_arg8 m ρ c)
theorem step4_arg8 (c : Dev nD) : W4 m ρ c (Proc.devRef .tc main_arg8) = W3 m ρ c (Proc.devRef .tc main_arg8) :=
  W4_of_ne m ρ c main_arg8 (by decide)
theorem at4_arg8 (c : Dev nD) : W4 m ρ c (Proc.devRef .tc main_arg8) = W0 m ρ c (Proc.devRef .tc main_arg8) := (step4_arg8 m ρ c).trans (at3_arg8 m ρ c)
theorem step5_arg8 (c : Dev nD) : W5 m ρ c (Proc.devRef .tc main_arg8) = W4 m ρ c (Proc.devRef .tc main_arg8) :=
  W5_of_ne m ρ c main_arg8 (by decide)
theorem at5_arg8 (c : Dev nD) : W5 m ρ c (Proc.devRef .tc main_arg8) = W0 m ρ c (Proc.devRef .tc main_arg8) := (step5_arg8 m ρ c).trans (at4_arg8 m ρ c)
theorem step6_arg8 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_arg8 (c : Dev nD) : W6 m ρ c (Proc.devRef .tc main_arg8) = W0 m ρ c (Proc.devRef .tc main_arg8) := (step6_arg8 m ρ c).trans (at5_arg8 m ρ c)
theorem step7_arg8 (c : Dev nD) : W7 m ρ c (Proc.devRef .tc main_arg8) = W6 m ρ c (Proc.devRef .tc main_arg8) :=
  W7_of_ne m ρ c main_arg8 (by decide)
theorem at7_arg8 (c : Dev nD) : W7 m ρ c (Proc.devRef .tc main_arg8) = W0 m ρ c (Proc.devRef .tc main_arg8) := (step7_arg8 m ρ c).trans (at6_arg8 m ρ c)
theorem step8_arg8 (c : Dev nD) : W8 m ρ c (Proc.devRef .tc main_arg8) = W7 m ρ c (Proc.devRef .tc main_arg8) :=
  W8_of_ne m ρ c main_arg8 (by decide)
theorem at8_arg8 (c : Dev nD) : W8 m ρ c (Proc.devRef .tc main_arg8) = W0 m ρ c (Proc.devRef .tc main_arg8) := (step8_arg8 m ρ c).trans (at7_arg8 m ρ c)
theorem step9_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_arg8 (c : Dev nD) : W9 m ρ c (Proc.devRef .tc main_arg8) = W0 m ρ c (Proc.devRef .tc main_arg8) := (step9_arg8 m ρ c).trans (at8_arg8 m ρ c)
theorem step10_arg8 (c : Dev nD) : W10 m ρ c (Proc.devRef .tc main_arg8) = W9 m ρ c (Proc.devRef .tc main_arg8) :=
  W10_of_ne m ρ c main_arg8 (by decide)
theorem at10_arg8 (c : Dev nD) : W10 m ρ c (Proc.devRef .tc main_arg8) = W0 m ρ c (Proc.devRef .tc main_arg8) := (step10_arg8 m ρ c).trans (at9_arg8 m ρ c)
theorem step11_arg8 (c : Dev nD) : W11 m ρ c (Proc.devRef .tc main_arg8) = W10 m ρ c (Proc.devRef .tc main_arg8) :=
  (W11_arr m ρ c 2).trans (((dat6 (V10 m ρ) c).arrAt_in 2 rfl _).trans (A_eq6 (V10 m ρ) c 2))
theorem at11_arg8 (c : Dev nD) : W11 m ρ c (Proc.devRef .tc main_arg8) = W0 m ρ c (Proc.devRef .tc main_arg8) := (step11_arg8 m ρ c).trans (at10_arg8 m ρ c)
theorem step12_arg8 (c : Dev nD) : W12 m ρ c (Proc.devRef .tc main_arg8) = W11 m ρ c (Proc.devRef .tc main_arg8) :=
  StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_arg8 (c : Dev nD) : W12 m ρ c (Proc.devRef .tc main_arg8) = W0 m ρ c (Proc.devRef .tc main_arg8) := (step12_arg8 m ρ c).trans (at11_arg8 m ρ c)
theorem step13_arg8 (c : Dev nD) : W13 m ρ c (Proc.devRef .tc main_arg8) = W12 m ρ c (Proc.devRef .tc main_arg8) :=
  W13_of_ne m ρ c main_arg8 (by decide)
theorem at13_arg8 (c : Dev nD) : W13 m ρ c (Proc.devRef .tc main_arg8) = W0 m ρ c (Proc.devRef .tc main_arg8) := (step13_arg8 m ρ c).trans (at12_arg8 m ρ c)

theorem step1_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at1_arg9 (c : Dev nD) : W1 m ρ c (Proc.devRef .tc main_arg9) = W0 m ρ c (Proc.devRef .tc main_arg9) := step1_arg9 m ρ c
theorem step2_arg9 (c : Dev nD) : W2 m ρ c (Proc.devRef .tc main_arg9) = W1 m ρ c (Proc.devRef .tc main_arg9) :=
  W2_of_ne m ρ c main_arg9 (by decide)
theorem at2_arg9 (c : Dev nD) : W2 m ρ c (Proc.devRef .tc main_arg9) = W0 m ρ c (Proc.devRef .tc main_arg9) := (step2_arg9 m ρ c).trans (at1_arg9 m ρ c)
theorem step3_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at3_arg9 (c : Dev nD) : W3 m ρ c (Proc.devRef .tc main_arg9) = W0 m ρ c (Proc.devRef .tc main_arg9) := (step3_arg9 m ρ c).trans (at2_arg9 m ρ c)
theorem step4_arg9 (c : Dev nD) : W4 m ρ c (Proc.devRef .tc main_arg9) = W3 m ρ c (Proc.devRef .tc main_arg9) :=
  W4_of_ne m ρ c main_arg9 (by decide)
theorem at4_arg9 (c : Dev nD) : W4 m ρ c (Proc.devRef .tc main_arg9) = W0 m ρ c (Proc.devRef .tc main_arg9) := (step4_arg9 m ρ c).trans (at3_arg9 m ρ c)
theorem step5_arg9 (c : Dev nD) : W5 m ρ c (Proc.devRef .tc main_arg9) = W4 m ρ c (Proc.devRef .tc main_arg9) :=
  W5_of_ne m ρ c main_arg9 (by decide)
theorem at5_arg9 (c : Dev nD) : W5 m ρ c (Proc.devRef .tc main_arg9) = W0 m ρ c (Proc.devRef .tc main_arg9) := (step5_arg9 m ρ c).trans (at4_arg9 m ρ c)
theorem step6_arg9 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_arg9 (c : Dev nD) : W6 m ρ c (Proc.devRef .tc main_arg9) = W0 m ρ c (Proc.devRef .tc main_arg9) := (step6_arg9 m ρ c).trans (at5_arg9 m ρ c)
theorem step7_arg9 (c : Dev nD) : W7 m ρ c (Proc.devRef .tc main_arg9) = W6 m ρ c (Proc.devRef .tc main_arg9) :=
  W7_of_ne m ρ c main_arg9 (by decide)
theorem at7_arg9 (c : Dev nD) : W7 m ρ c (Proc.devRef .tc main_arg9) = W0 m ρ c (Proc.devRef .tc main_arg9) := (step7_arg9 m ρ c).trans (at6_arg9 m ρ c)
theorem step8_arg9 (c : Dev nD) : W8 m ρ c (Proc.devRef .tc main_arg9) = W7 m ρ c (Proc.devRef .tc main_arg9) :=
  W8_of_ne m ρ c main_arg9 (by decide)
theorem at8_arg9 (c : Dev nD) : W8 m ρ c (Proc.devRef .tc main_arg9) = W0 m ρ c (Proc.devRef .tc main_arg9) := (step8_arg9 m ρ c).trans (at7_arg9 m ρ c)
theorem step9_arg9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_arg9 (c : Dev nD) : W9 m ρ c (Proc.devRef .tc main_arg9) = W0 m ρ c (Proc.devRef .tc main_arg9) := (step9_arg9 m ρ c).trans (at8_arg9 m ρ c)
theorem step10_arg9 (c : Dev nD) : W10 m ρ c (Proc.devRef .tc main_arg9) = W9 m ρ c (Proc.devRef .tc main_arg9) :=
  W10_of_ne m ρ c main_arg9 (by decide)
theorem at10_arg9 (c : Dev nD) : W10 m ρ c (Proc.devRef .tc main_arg9) = W0 m ρ c (Proc.devRef .tc main_arg9) := (step10_arg9 m ρ c).trans (at9_arg9 m ρ c)
theorem step11_arg9 (c : Dev nD) : W11 m ρ c (Proc.devRef .tc main_arg9) = W10 m ρ c (Proc.devRef .tc main_arg9) :=
  W11_of_ne m ρ c main_arg9 (by decide)
theorem at11_arg9 (c : Dev nD) : W11 m ρ c (Proc.devRef .tc main_arg9) = W0 m ρ c (Proc.devRef .tc main_arg9) := (step11_arg9 m ρ c).trans (at10_arg9 m ρ c)
theorem step12_arg9 (c : Dev nD) : W12 m ρ c (Proc.devRef .tc main_arg9) = W11 m ρ c (Proc.devRef .tc main_arg9) :=
  StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_arg9 (c : Dev nD) : W12 m ρ c (Proc.devRef .tc main_arg9) = W0 m ρ c (Proc.devRef .tc main_arg9) := (step12_arg9 m ρ c).trans (at11_arg9 m ρ c)
theorem step13_arg9 (c : Dev nD) : W13 m ρ c (Proc.devRef .tc main_arg9) = W12 m ρ c (Proc.devRef .tc main_arg9) :=
  W13_of_ne m ρ c main_arg9 (by decide)
theorem at13_arg9 (c : Dev nD) : W13 m ρ c (Proc.devRef .tc main_arg9) = W0 m ρ c (Proc.devRef .tc main_arg9) := (step13_arg9 m ρ c).trans (at12_arg9 m ρ c)
theorem step14_arg9 (c : Dev nD) : W14 m ρ c (Proc.devRef .tc main_arg9) = W13 m ρ c (Proc.devRef .tc main_arg9) :=
  W14_of_ne m ρ c main_arg9 (by decide)
theorem at14_arg9 (c : Dev nD) : W14 m ρ c (Proc.devRef .tc main_arg9) = W0 m ρ c (Proc.devRef .tc main_arg9) := (step14_arg9 m ρ c).trans (at13_arg9 m ρ c)

end Cert.KernelIdeal.Steps

end
-- ==== Proof.StepsLayers.lean ====
/-
  A layer's output that a later layer adds back (the residual connections) is unchanged until it is read again.

  A stretch of host operations changes only the buffers its operations write; a pallas_call changes only its output
  array (an input array is staged and never written back). So a buffer none of them writes holds at a later boundary what
  it held at an earlier one: one equation per segment crossed, chained.
-/
import proofs.«128388_j11321533792498_1_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem step5_v44 (c : Dev nD) : W5 m ρ c (Proc.devRef .tc main_v44) = W4 m ρ c (Proc.devRef .tc main_v44) :=
  (W5_arr m ρ c 0).trans (((dat2 (V4 m ρ) c).arrAt_in 0 rfl _).trans (A_eq2 (V4 m ρ) c 0))
theorem at5_v44 (c : Dev nD) : W5 m ρ c (Proc.devRef .tc main_v44) = W4 m ρ c (Proc.devRef .tc main_v44) := step5_v44 m ρ c
theorem step6_v44 (c : Dev nD) : W6 m ρ c (Proc.devRef .tc main_v44) = W5 m ρ c (Proc.devRef .tc main_v44) :=
  StableHlo.after_of_forall_not_mem (b := Proc.devRef .tc main_v44) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at6_v44 (c : Dev nD) : W6 m ρ c (Proc.devRef .tc main_v44) = W4 m ρ c (Proc.devRef .tc main_v44) := (step6_v44 m ρ c).trans (at5_v44 m ρ c)
theorem step7_v44 (c : Dev nD) : W7 m ρ c (Proc.devRef .tc main_v44) = W6 m ρ c (Proc.devRef .tc main_v44) :=
  W7_of_ne m ρ c main_v44 (by decide)
theorem at7_v44 (c : Dev nD) : W7 m ρ c (Proc.devRef .tc main_v44) = W4 m ρ c (Proc.devRef .tc main_v44) := (step7_v44 m ρ c).trans (at6_v44 m ρ c)

theorem step8_v60 (c : Dev nD) : W8 m ρ c (Proc.devRef .tc main_v60) = W7 m ρ c (Proc.devRef .tc main_v60) :=
  (W8_arr m ρ c 0).trans (((dat4 (V7 m ρ) c).arrAt_in 0 rfl _).trans (A_eq4 (V7 m ρ) c 0))
theorem at8_v60 (c : Dev nD) : W8 m ρ c (Proc.devRef .tc main_v60) = W7 m ρ c (Proc.devRef .tc main_v60) := step8_v60 m ρ c
theorem step9_v60 (c : Dev nD) : W9 m ρ c (Proc.devRef .tc main_v60) = W8 m ρ c (Proc.devRef .tc main_v60) :=
  StableHlo.after_of_forall_not_mem (b := Proc.devRef .tc main_v60) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at9_v60 (c : Dev nD) : W9 m ρ c (Proc.devRef .tc main_v60) = W7 m ρ c (Proc.devRef .tc main_v60) := (step9_v60 m ρ c).trans (at8_v60 m ρ c)
theorem step10_v60 (c : Dev nD) : W10 m ρ c (Proc.devRef .tc main_v60) = W9 m ρ c (Proc.devRef .tc main_v60) :=
  W10_of_ne m ρ c main_v60 (by decide)
theorem at10_v60 (c : Dev nD) : W10 m ρ c (Proc.devRef .tc main_v60) = W7 m ρ c (Proc.devRef .tc main_v60) := (step10_v60 m ρ c).trans (at9_v60 m ρ c)

theorem step11_v76 (c : Dev nD) : W11 m ρ c (Proc.devRef .tc main_v76) = W10 m ρ c (Proc.devRef .tc main_v76) :=
  (W11_arr m ρ c 1).trans (((dat6 (V10 m ρ) c).arrAt_in 1 rfl _).trans (A_eq6 (V10 m ρ) c 1))
theorem at11_v76 (c : Dev nD) : W11 m ρ c (Proc.devRef .tc main_v76) = W10 m ρ c (Proc.devRef .tc main_v76) := step11_v76 m ρ c
theorem step12_v76 (c : Dev nD) : W12 m ρ c (Proc.devRef .tc main_v76) = W11 m ρ c (Proc.devRef .tc main_v76) :=
  StableHlo.after_of_forall_not_mem (b := Proc.devRef .tc main_v76) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at12_v76 (c : Dev nD) : W12 m ρ c (Proc.devRef .tc main_v76) = W10 m ρ c (Proc.devRef .tc main_v76) := (step12_v76 m ρ c).trans (at11_v76 m ρ c)
theorem step13_v76 (c : Dev nD) : W13 m ρ c (Proc.devRef .tc main_v76) = W12 m ρ c (Proc.devRef .tc main_v76) :=
  W13_of_ne m ρ c main_v76 (by decide)
theorem at13_v76 (c : Dev nD) : W13 m ρ c (Proc.devRef .tc main_v76) = W10 m ρ c (Proc.devRef .tc main_v76) := (step13_v76 m ρ c).trans (at12_v76 m ρ c)

end Cert.KernelIdeal.Steps

end
-- ==== Proof.Stages.lean ====
/-
  The kernel's buffers at every segment boundary, as the network's intermediate values.

  Walking @main's sixteen segments from the launch memory: the first stretch computes the edge list's endpoints and
  weights; then, five times, a pallas_call leaves a dense transform (of a layer's input, or of the sum of two earlier
  layers' outputs), a stretch of host operations aggregates it over the edges and reshapes the bias to a row, and a
  pallas_call leaves relu(aggregate + bias). Each step's operands are buffers whose contents an earlier step fixed, so
  the result buffer ends holding the network function of the argument arrays.
-/
import proofs.«128388_j11321533792498_1_alg».proof.Proof.Gen.KernelIdeal.Frame
import proofs.«128388_j11321533792498_1_alg».proof.Proof.GcnSpec
import proofs.«128388_j11321533792498_1_alg».proof.Proof.BodyValue
import proofs.«128388_j11321533792498_1_alg».proof.Proof.Region0
import proofs.«128388_j11321533792498_1_alg».proof.Proof.Region1
import proofs.«128388_j11321533792498_1_alg».proof.Proof.Region2
import proofs.«128388_j11321533792498_1_alg».proof.Proof.Region3
import proofs.«128388_j11321533792498_1_alg».proof.Proof.Region4
import proofs.«128388_j11321533792498_1_alg».proof.Proof.Region5
import proofs.«128388_j11321533792498_1_alg».proof.Proof.Region6
import proofs.«128388_j11321533792498_1_alg».proof.Proof.Region7
import proofs.«128388_j11321533792498_1_alg».proof.Proof.Region8
import proofs.«128388_j11321533792498_1_alg».proof.Proof.Region9
import proofs.«128388_j11321533792498_1_alg».proof.Proof.StepsGraph
import proofs.«128388_j11321533792498_1_alg».proof.Proof.StepsArgs
import proofs.«128388_j11321533792498_1_alg».proof.Proof.StepsLayers
import Idealize.ShloMosaic.Lib.StableHlo.Run
import Idealize.ShloMosaic.Lib.Pipeline.Value

set_option maxRecDepth 16384

noncomputable section

namespace Cert.Gcn

open Idealize.ShloMosaic Idealize.ShloMosaic.ValueIdx

/-- A vector of 128 entries recast as a 1 × 128 matrix is the vector as a row. -/
theorem row_of_vec {α : Type} (b : (⟨1, ![128]⟩ : Shape).Idx → α)
    (h : (⟨1, ![128]⟩ : Shape).ShapeCasts (⟨2, ![1, 128]⟩ : Shape)) :
    shapeCast (⟨2, ![1, 128]⟩ : Shape) b h = asRow b := by
  funext y
  refine shapeCast_apply b h y _ ?_
  rw [Shape.rowMajor_val_two, Shape.rowMajor_val_one]
  have h0 : (y 0).val < 1 := idx2_lt0 y
  show (y 1).val = (y 0).val * 128 + (y 1).val
  omega

end Cert.Gcn

namespace Cert.KernelIdeal.Stages

open Cert.KernelIdeal Cert.KernelIdeal.Gen Cert.KernelIdeal.Steps
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The edge list: endpoints and weights, after the first stretch and wherever a later stretch reads them -/

theorem g1_v3 : W1 m ρ c (Proc.devRef .tc main_v3) = (Gcn.srcOf (F := Ideal) (m ((c : Thread nD τ).loc main_arg1))) := by
  show StableHlo.after hostOps0 (W0 m ρ c) (Proc.devRef .tc main_v3) = _
  after_results_simp
  rfl
theorem g1_v6 : W1 m ρ c (Proc.devRef .tc main_v6) = (Gcn.dstOf (F := Ideal) (m ((c : Thread nD τ).loc main_arg1))) := by
  show StableHlo.after hostOps0 (W0 m ρ c) (Proc.devRef .tc main_v6) = _
  after_results_simp
  rfl
theorem g1_v28 : W1 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := by
  show StableHlo.after hostOps0 (W0 m ρ c) (Proc.devRef .tc main_v28) = _
  after_results_simp
  rfl
theorem g2_v3 : W2 m ρ c (Proc.devRef .tc main_v3) = (Gcn.srcOf (F := Ideal) (m ((c : Thread nD τ).loc main_arg1))) := (at2_v3 m ρ c).trans (g1_v3 m ρ c)
theorem g2_v6 : W2 m ρ c (Proc.devRef .tc main_v6) = (Gcn.dstOf (F := Ideal) (m ((c : Thread nD τ).loc main_arg1))) := (at2_v6 m ρ c).trans (g1_v6 m ρ c)
theorem g2_v28 : W2 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := (at2_v28 m ρ c).trans (g1_v28 m ρ c)
theorem g5_v3 : W5 m ρ c (Proc.devRef .tc main_v3) = (Gcn.srcOf (F := Ideal) (m ((c : Thread nD τ).loc main_arg1))) := (at5_v3 m ρ c).trans (g1_v3 m ρ c)
theorem g5_v6 : W5 m ρ c (Proc.devRef .tc main_v6) = (Gcn.dstOf (F := Ideal) (m ((c : Thread nD τ).loc main_arg1))) := (at5_v6 m ρ c).trans (g1_v6 m ρ c)
theorem g5_v28 : W5 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := (at5_v28 m ρ c).trans (g1_v28 m ρ c)
theorem g8_v3 : W8 m ρ c (Proc.devRef .tc main_v3) = (Gcn.srcOf (F := Ideal) (m ((c : Thread nD τ).loc main_arg1))) := (at8_v3 m ρ c).trans (g1_v3 m ρ c)
theorem g8_v6 : W8 m ρ c (Proc.devRef .tc main_v6) = (Gcn.dstOf (F := Ideal) (m ((c : Thread nD τ).loc main_arg1))) := (at8_v6 m ρ c).trans (g1_v6 m ρ c)
theorem g8_v28 : W8 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := (at8_v28 m ρ c).trans (g1_v28 m ρ c)
theorem g11_v3 : W11 m ρ c (Proc.devRef .tc main_v3) = (Gcn.srcOf (F := Ideal) (m ((c : Thread nD τ).loc main_arg1))) := (at11_v3 m ρ c).trans (g1_v3 m ρ c)
theorem g11_v6 : W11 m ρ c (Proc.devRef .tc main_v6) = (Gcn.dstOf (F := Ideal) (m ((c : Thread nD τ).loc main_arg1))) := (at11_v6 m ρ c).trans (g1_v6 m ρ c)
theorem g11_v28 : W11 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := (at11_v28 m ρ c).trans (g1_v28 m ρ c)
theorem g14_v3 : W14 m ρ c (Proc.devRef .tc main_v3) = (Gcn.srcOf (F := Ideal) (m ((c : Thread nD τ).loc main_arg1))) := (at14_v3 m ρ c).trans (g1_v3 m ρ c)
theorem g14_v6 : W14 m ρ c (Proc.devRef .tc main_v6) = (Gcn.dstOf (F := Ideal) (m ((c : Thread nD τ).loc main_arg1))) := (at14_v6 m ρ c).trans (g1_v6 m ρ c)
theorem g14_v28 : W14 m ρ c (Proc.devRef .tc main_v28) = (Gcn.edgeWeight (F := Ideal) (Gcn.srcOf (F := Ideal) (m ((c : Thread nD τ).loc main_arg1))) (Gcn.dstOf (F := Ideal) (m ((c : Thread nD τ).loc main_arg1)))) := (at14_v28 m ρ c).trans (g1_v28 m ρ c)

/-! ## Layer 1 -/

theorem val2 : W2 m ρ c (Proc.devRef .tc main_v29) = Gcn.dense (F := Ideal) (m ((c : Thread nD τ).loc main_arg0)) (m ((c : Thread nD τ).loc main_arg2)) :=
  (W2_arr m ρ c 2).trans ((Region0.value (V1 m ρ) c).trans
    (congrArg₂ (Gcn.dense (F := Ideal)) (at1_arg0 m ρ c) (at1_arg2 m ρ c)))
theorem val3a : W3 m ρ c (Proc.devRef .tc main_v42) = Gcn.aggregate (F := Ideal) (Gcn.srcOf (F := Ideal) (m ((c : Thread nD τ).loc main_arg1))) (Gcn.dstOf (F := Ideal) (m ((c : Thread nD τ).loc main_arg1))) (Gcn.edgeWeight (F := Ideal) (Gcn.srcOf (F := Ideal) (m ((c : Thread nD τ).loc main_arg1))) (Gcn.dstOf (F := Ideal) (m ((c : Thread nD τ).loc main_arg1)))) (Gcn.dense (F := Ideal) (m ((c : Thread nD τ).loc main_arg0)) (m ((c : Thread nD τ).loc main_arg2))) := by
  show StableHlo.after hostOps1 (W2 m ρ c) (Proc.devRef .tc main_v42) = _
  after_results_simp
  rw [g2_v3 m ρ c, g2_v6 m ρ c, g2_v28 m ρ c, val2 m ρ c]
  rfl

theorem val3b : W3 m ρ c (Proc.devRef .tc main_v43) = Gcn.asRow (m ((c : Thread nD τ).loc main_arg3)) := by
  show StableHlo.after hostOps1 (W2 m ρ c) (Proc.devRef .tc main_v43) = _
  after_results_simp
  rw [at2_arg3 m ρ c]
  exact Gcn.row_of_vec _ _

theorem val4 : W4 m ρ c (Proc.devRef .tc main_v44) = (Gcn.x1 (F := Ideal) (m ((c : Thread nD τ).loc main_arg0)) (m ((c : Thread nD τ).loc main_arg1)) (m ((c : Thread nD τ).loc main_arg2)) (m ((c : Thread nD τ).loc main_arg3))) :=
  (W4_arr m ρ c 2).trans ((Region1.value (V3 m ρ) c (m ((c : Thread nD τ).loc main_arg3)) (val3b m ρ c)).trans
    (congrArg (fun a => Gcn.biasRelu (F := Ideal) a (m ((c : Thread nD τ).loc main_arg3))) (val3a m ρ c)))

/-! ## Layer 2 -/

theorem val5 : W5 m ρ c (Proc.devRef .tc main_v45) = Gcn.dense (F := Ideal) (Gcn.x1 (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W5_arr m ρ c 2).trans ((Region2.value (V4 m ρ) c).trans
    (congrArg₂ (Gcn.dense (F := Ideal)) (val4 m ρ c) (at4_arg4 m ρ c)))
theorem val6a : W6 m ρ c (Proc.devRef .tc main_v58) = Gcn.aggregate (F := Ideal) (Gcn.srcOf (F := Ideal) (m ((c : Thread nD τ).loc main_arg1))) (Gcn.dstOf (F := Ideal) (m ((c : Thread nD τ).loc main_arg1))) (Gcn.edgeWeight (F := Ideal) (Gcn.srcOf (F := Ideal) (m ((c : Thread nD τ).loc main_arg1))) (Gcn.dstOf (F := Ideal) (m ((c : Thread nD τ).loc main_arg1)))) (Gcn.dense (F := Ideal) (Gcn.x1 (F := Ideal) (m ((c : Thread nD τ).loc main_arg0)) (m ((c : Thread nD τ).loc main_arg1)) (m ((c : Thread nD τ).loc main_arg2)) (m ((c : Thread nD τ).loc main_arg3))) (m ((c : Thread nD τ).loc main_arg4))) := by
  show StableHlo.after hostOps3 (W5 m ρ c) (Proc.devRef .tc main_v58) = _
  after_results_simp
  rw [g5_v3 m ρ c, g5_v6 m ρ c, g5_v28 m ρ c, val5 m ρ c]
  rfl

theorem val6b : W6 m ρ c (Proc.devRef .tc main_v59) = Gcn.asRow (m ((c : Thread nD τ).loc main_arg5)) := by
  show StableHlo.after hostOps3 (W5 m ρ c) (Proc.devRef .tc main_v59) = _
  after_results_simp
  rw [at5_arg5 m ρ c]
  exact Gcn.row_of_vec _ _

theorem val7 : W7 m ρ c (Proc.devRef .tc main_v60) = (Gcn.x2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W7_arr m ρ c 2).trans ((Region3.value (V6 m ρ) c (m ((c : Thread nD τ).loc main_arg5)) (val6b m ρ c)).trans
    (congrArg (fun a => Gcn.biasRelu (F := Ideal) a (m ((c : Thread nD τ).loc main_arg5))) (val6a m ρ c)))

/-! ## Layer 3: fed the sum of layers 2 and 1 -/

theorem val8 : W8 m ρ c (Proc.devRef .tc main_v61) = Gcn.dense (F := Ideal) (addf (F := Ideal) (s := Cert.ReferenceIdeal.S100000x128) (φ := .f32) (Gcn.x2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Gcn.x1 (F := Ideal) (m ((c : Thread nD τ).loc main_arg0)) (m ((c : Thread nD τ).loc main_arg1)) (m ((c : Thread nD τ).loc main_arg2)) (m ((c : Thread nD τ).loc main_arg3)))) (m ((c : Thread nD τ).loc main_arg6)) :=
  (W8_arr m ρ c 3).trans ((Region4.value (V7 m ρ) c).trans
    (congrArg₂ (Gcn.dense (F := Ideal)) (congrArg₂ (fun a b : FVec Ideal Cert.ReferenceIdeal.S100000x128 .f32 => addf a b) (val7 m ρ c) ((at7_v44 m ρ c).trans (val4 m ρ c))) (at7_arg6 m ρ c)))
theorem val9a : W9 m ρ c (Proc.devRef .tc main_v74) = Gcn.aggregate (F := Ideal) (Gcn.srcOf (F := Ideal) (m ((c : Thread nD τ).loc main_arg1))) (Gcn.dstOf (F := Ideal) (m ((c : Thread nD τ).loc main_arg1))) (Gcn.edgeWeight (F := Ideal) (Gcn.srcOf (F := Ideal) (m ((c : Thread nD τ).loc main_arg1))) (Gcn.dstOf (F := Ideal) (m ((c : Thread nD τ).loc main_arg1)))) (Gcn.dense (F := Ideal) (addf (F := Ideal) (s := Cert.ReferenceIdeal.S100000x128) (φ := .f32) (Gcn.x2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Gcn.x1 (F := Ideal) (m ((c : Thread nD τ).loc main_arg0)) (m ((c : Thread nD τ).loc main_arg1)) (m ((c : Thread nD τ).loc main_arg2)) (m ((c : Thread nD τ).loc main_arg3)))) (m ((c : Thread nD τ).loc main_arg6))) := by
  show StableHlo.after hostOps5 (W8 m ρ c) (Proc.devRef .tc main_v74) = _
  after_results_simp
  rw [g8_v3 m ρ c, g8_v6 m ρ c, g8_v28 m ρ c, val8 m ρ c]
  rfl

theorem val9b : W9 m ρ c (Proc.devRef .tc main_v75) = Gcn.asRow (m ((c : Thread nD τ).loc main_arg7)) := by
  show StableHlo.after hostOps5 (W8 m ρ c) (Proc.devRef .tc main_v75) = _
  after_results_simp
  rw [at8_arg7 m ρ c]
  exact Gcn.row_of_vec _ _

theorem val10 : W10 m ρ c (Proc.devRef .tc main_v76) = (Gcn.x3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_arr m ρ c 2).trans ((Region5.value (V9 m ρ) c (m ((c : Thread nD τ).loc main_arg7)) (val9b m ρ c)).trans
    (congrArg (fun a => Gcn.biasRelu (F := Ideal) a (m ((c : Thread nD τ).loc main_arg7))) (val9a m ρ c)))

/-! ## Layer 4: fed the sum of layers 2 and 3 -/

theorem val11 : W11 m ρ c (Proc.devRef .tc main_v77) = Gcn.dense (F := Ideal) (addf (F := Ideal) (s := Cert.ReferenceIdeal.S100000x128) (φ := .f32) (Gcn.x2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Gcn.x3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8)) :=
  (W11_arr m ρ c 3).trans ((Region6.value (V10 m ρ) c).trans
    (congrArg₂ (Gcn.dense (F := Ideal)) (congrArg₂ (fun a b : FVec Ideal Cert.ReferenceIdeal.S100000x128 .f32 => addf a b) ((at10_v60 m ρ c).trans (val7 m ρ c)) (val10 m ρ c)) (at10_arg8 m ρ c)))
theorem val12a : W12 m ρ c (Proc.devRef .tc main_v90) = Gcn.aggregate (F := Ideal) (Gcn.srcOf (F := Ideal) (m ((c : Thread nD τ).loc main_arg1))) (Gcn.dstOf (F := Ideal) (m ((c : Thread nD τ).loc main_arg1))) (Gcn.edgeWeight (F := Ideal) (Gcn.srcOf (F := Ideal) (m ((c : Thread nD τ).loc main_arg1))) (Gcn.dstOf (F := Ideal) (m ((c : Thread nD τ).loc main_arg1)))) (Gcn.dense (F := Ideal) (addf (F := Ideal) (s := Cert.ReferenceIdeal.S100000x128) (φ := .f32) (Gcn.x2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Gcn.x3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8))) := by
  show StableHlo.after hostOps7 (W11 m ρ c) (Proc.devRef .tc main_v90) = _
  after_results_simp
  rw [g11_v3 m ρ c, g11_v6 m ρ c, g11_v28 m ρ c, val11 m ρ c]
  rfl

theorem val12b : W12 m ρ c (Proc.devRef .tc main_v91) = Gcn.asRow (m ((c : Thread nD τ).loc main_arg9)) := by
  show StableHlo.after hostOps7 (W11 m ρ c) (Proc.devRef .tc main_v91) = _
  after_results_simp
  rw [at11_arg9 m ρ c]
  exact Gcn.row_of_vec _ _

theorem val13 : W13 m ρ c (Proc.devRef .tc main_v92) = (Gcn.x4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W13_arr m ρ c 2).trans ((Region7.value (V12 m ρ) c (m ((c : Thread nD τ).loc main_arg9)) (val12b m ρ c)).trans
    (congrArg (fun a => Gcn.biasRelu (F := Ideal) a (m ((c : Thread nD τ).loc main_arg9))) (val12a m ρ c)))

/-! ## Layer 5: the fourth weights again, fed the sum of layers 4 and 3 -/

theorem val14 : W14 m ρ c (Proc.devRef .tc main_v93) = Gcn.dense (F := Ideal) (addf (F := Ideal) (s := Cert.ReferenceIdeal.S100000x128) (φ := .f32) (Gcn.x4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Gcn.x3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8)) :=
  (W14_arr m ρ c 3).trans ((Region8.value (V13 m ρ) c).trans
    (congrArg₂ (Gcn.dense (F := Ideal)) (congrArg₂ (fun a b : FVec Ideal Cert.ReferenceIdeal.S100000x128 .f32 => addf a b) (val13 m ρ c) ((at13_v76 m ρ c).trans (val10 m ρ c))) (at13_arg8 m ρ c)))
theorem val15a : W15 m ρ c (Proc.devRef .tc main_v106) = Gcn.aggregate (F := Ideal) (Gcn.srcOf (F := Ideal) (m ((c : Thread nD τ).loc main_arg1))) (Gcn.dstOf (F := Ideal) (m ((c : Thread nD τ).loc main_arg1))) (Gcn.edgeWeight (F := Ideal) (Gcn.srcOf (F := Ideal) (m ((c : Thread nD τ).loc main_arg1))) (Gcn.dstOf (F := Ideal) (m ((c : Thread nD τ).loc main_arg1)))) (Gcn.dense (F := Ideal) (addf (F := Ideal) (s := Cert.ReferenceIdeal.S100000x128) (φ := .f32) (Gcn.x4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Gcn.x3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8))) := by
  show StableHlo.after hostOps9 (W14 m ρ c) (Proc.devRef .tc main_v106) = _
  after_results_simp
  rw [g14_v3 m ρ c, g14_v6 m ρ c, g14_v28 m ρ c, val14 m ρ c]
  rfl

theorem val15b : W15 m ρ c (Proc.devRef .tc main_v107) = Gcn.asRow (m ((c : Thread nD τ).loc main_arg9)) := by
  show StableHlo.after hostOps9 (W14 m ρ c) (Proc.devRef .tc main_v107) = _
  after_results_simp
  rw [at14_arg9 m ρ c]
  exact Gcn.row_of_vec _ _

/-- The result buffer at the last boundary: the network of the argument arrays. -/
theorem result : W16 m ρ c (Proc.devRef .tc main_v108) = (Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W16_arr m ρ c 2).trans ((Region9.value (V15 m ρ) c (m ((c : Thread nD τ).loc main_arg9)) (val15b m ρ c)).trans
    (congrArg (fun a => Gcn.biasRelu (F := Ideal) a (m ((c : Thread nD τ).loc main_arg9))) (val15a m ρ c)))

end Cert.KernelIdeal.Stages

end
-- ==== Proof.RefValue.lean ====
/-
  The plain-jnp program's result is the network function of its arguments.

  Its run ends with the result buffer at the composition of its host operations over the argument arrays; that
  composition is, operation for operation, the five convolutions of the specification: unfolding both sides shows it.
-/
import proofs.«128388_j11321533792498_1_alg».proof.Proof.Gen.ReferenceIdeal.Run
import proofs.«128388_j11321533792498_1_alg».proof.Proof.GcnSpec

set_option maxRecDepth 16384

noncomputable section

namespace Cert.ReferenceIdeal.RefValue

open Cert.ReferenceIdeal Cert.ReferenceIdeal.Gen Idealize.ShloMosaic Idealize.ShloMosaic.TcCoe Idealize.SL.Sem

set_option maxHeartbeats 4000000 in
/-- The run's result term is the network of the argument arrays. -/
theorem result_eq (m : (ℓ : Loc nD τ sig) → Buf (Elt Ideal) ℓ) (c : Dev nD) :
    Cert.ReferenceIdeal.Value.res_main_v121 (F := Ideal) m c
      = Cert.Gcn.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v121
  rfl

end Cert.ReferenceIdeal.RefValue

end
-- ==== Proof.lean ====
/-
  The certificate of a residual graph-convolution network: a Pallas kernel program against its plain-jnp reference.

  Both programs compute, over the extended reals, the same function of their ten arguments (node features, an edge list,
  four weight matrices and four biases): five graph convolutions relu(A (H W) + b) over the edge list with self loops,
  the later ones fed the sum of two earlier layers' outputs (Proof/GcnSpec.lean). The reference spells each dense
  transform H W as a host dot product and each relu(· + b) with host operations; the kernel program does the first in a
  pallas_call that walks the rows in 20 blocks of 5000 (casting to a narrower float format, which is the identity here),
  the second in another such call, and leaves the edge aggregation — the same host gather and scatter-add as the
  reference's — between them. A block of rows of H W depends only on those rows of H, and relu(· + b) is entrywise, so
  each call leaves in its output array exactly the reference's array (Proof/BodyValue.lean, Proof/Region0.lean … 9);
  walking @main's sixteen segments with these values gives the network at the result buffer (Proof/Stages.lean), and the
  reference's composed term is the network by unfolding (Proof/RefValue.lean). No law of arithmetic beyond the sum over the
  shared axis is used, so the inputs' finiteness is never opened.
  The three frames are the generated ones (the reference's is its run with the result dropped); the ideal pass rewrote
  nothing, so `preserves` is trivial.
-/
import proofs.«128388_j11321533792498_1_alg».proof.Defs
import proofs.«128388_j11321533792498_1_alg».proof.Proof.Gen.Kernel
import proofs.«128388_j11321533792498_1_alg».proof.Proof.Gen.Kernel.Skeleton
import proofs.«128388_j11321533792498_1_alg».proof.Proof.Gen.Kernel.Launch
import proofs.«128388_j11321533792498_1_alg».proof.Proof.Gen.Kernel.Points
import proofs.«128388_j11321533792498_1_alg».proof.Proof.Gen.Kernel.Frame
import proofs.«128388_j11321533792498_1_alg».proof.Proof.Gen.KernelIdeal
import proofs.«128388_j11321533792498_1_alg».proof.Proof.Gen.KernelIdeal.Skeleton
import proofs.«128388_j11321533792498_1_alg».proof.Proof.Gen.KernelIdeal.Launch
import proofs.«128388_j11321533792498_1_alg».proof.Proof.Gen.KernelIdeal.Points
import proofs.«128388_j11321533792498_1_alg».proof.Proof.Gen.KernelIdeal.Frame
import proofs.«128388_j11321533792498_1_alg».proof.Proof.Gen.ReferenceIdeal
import proofs.«128388_j11321533792498_1_alg».proof.Proof.Gen.Pre_finite_inputs
import proofs.«128388_j11321533792498_1_alg».proof.Proof.Gen.ReferenceIdeal.Run
import proofs.«128388_j11321533792498_1_alg».proof.Proof.Gen.ReferenceIdeal.Read
import proofs.«128388_j11321533792498_1_alg».proof.Proof.GcnSpec
import proofs.«128388_j11321533792498_1_alg».proof.Proof.KernelRun
import proofs.«128388_j11321533792498_1_alg».proof.Proof.Stages
import proofs.«128388_j11321533792498_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network function of the (agreeing) argument arrays in their result buffers. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
